-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000x1 : Shape := ⟨2, ![500000, 1]⟩
abbrev S1000000x3 : Shape := ⟨2, ![1000000, 3]⟩
abbrev S500000 : Shape := ⟨1, ![500000]⟩
abbrev S1x128 : Shape := ⟨2, ![1, 128]⟩
abbrev S128 : Shape := ⟨1, ![128]⟩
abbrev S256 : Shape := ⟨1, ![256]⟩
abbrev S256x128 : Shape := ⟨2, ![256, 128]⟩
abbrev S128x128 : Shape := ⟨2, ![128, 128]⟩
abbrev S3x128 : Shape := ⟨2, ![3, 128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S500000x1 : S_.BroadcastsInDim S500000x1 (![] : Fin 0 → Fin S500000x1.rank)
  reducesTo_S500000x1_S_d0_1 : S500000x1.ReducesTo [0, 1] S_
  bcast_S_S1000000x3 : S_.BroadcastsInDim S1000000x3 (![] : Fin 0 → Fin S1000000x3.rank)
  reducesTo_S1000000x3_S_d0_1 : S1000000x3.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S3x128 : S_.BroadcastsInDim S3x128 (![] : Fin 0 → Fin S3x128.rank)
  reducesTo_S3x128_S_d0_1 : S3x128.ReducesTo [0, 1] S_

variable [Facts]

def fn_part3 {F : FTy → Type} [FloatOps F] (main_arg12 : FVec F S3x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S3x128 .f32 := Host.absf main_arg12
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S256x128 .f32) (main_arg9 : FVec F S128 .f32) (main_arg10 : FVec F S128x128 .f32) (main_arg11 : FVec F S128 .f32) (main_arg12 : FVec F S3x128 .f32) (main_arg13 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S256 .f32) (main_arg7 : FVec F S256 .f32) (main_arg8 : FVec F S256x128 .f32) (main_arg9 : FVec F S128 .f32) (main_arg10 : FVec F S128x128 .f32) (main_arg11 : FVec F S128 .f32) (main_arg12 : FVec F S3x128 .f32) (main_arg13 : FVec F S128 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S500000x128 .f32) (main_arg1 : FVec F S500000x1 .f32) (main_arg2 : FVec F S1000000x3 .f32) (main_arg3 : IVec S500000 32) (main_arg4 : FVec F S1x128 .f32) (main_arg5 : FVec F S128 .f32) (main_arg6 : FVec F S256 .f32) (main_arg7 : FVec F S256 .f32) (main_arg8 : FVec F S256x128 .f32) (main_arg9 : FVec F S128 .f32) (main_arg10 : FVec F S128x128 .f32) (main_arg11 : FVec F S128 .f32) (main_arg12 : FVec F S3x128 .f32) (main_arg13 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x1 .f32 := Host.absf main_arg1
  let main_cst_0 : FVec F S_ .f32 := constant S_ .f32 0x7F800000#32
  let main_v5 : FVec F S500000x1 .f32 := broadcastInDim S500000x1 ![] bcast_S_S500000x1 main_cst_0
  let main_v6 : IVec S500000x1 1 := cmpf .olt main_v4 main_v5
  let main_c_1 : IVec S_ 1 := constantI S_ 1 1#1
  let main_v7 : IVec S_ 1 := (fun x v => Host.reduce IntOp.andi x v reducesTo_S500000x1_S_d0_1 h_S_) main_v6 main_c_1
  let main_v8 : IVec S_ 1 := andi main_v3 main_v7
  let main_v9 : FVec F S1000000x3 .f32 := Host.absf main_arg2
  let main_cst_2 : FVec F S_ .f32 := constant S_ .f32 0x7F800000#32
  let main_v10 : FVec F S1000000x3 .f32 := broadcastInDim S1000000x3 ![] bcast_S_S1000000x3 main_cst_2
  let main_v11 : IVec S1000000x3 1 := cmpf .olt main_v9 main_v10
  let main_c_3 : IVec S_ 1 := constantI S_ 1 1#1
  let main_v12 : IVec S_ 1 := (fun x v => Host.reduce IntOp.andi x v reducesTo_S1000000x3_S_d0_1 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg5 main_arg6 main_arg7 main_arg8 main_arg9 main_arg10 main_arg11 main_arg12 main_arg13 main_v13 main_v16
-- ==== Kernel.lean ====
abbrev S500000x128 : Shape := ⟨2, ![500000, 128]⟩
abbrev S500000x1 : Shape := ⟨2, ![500000, 1]⟩
abbrev S1000000x3 : Shape := ⟨2, ![1000000, 3]⟩
abbrev S500000 : Shape := ⟨1, ![500000]⟩
abbrev S1x128 : Shape := ⟨2, ![1, 128]⟩
abbrev S128 : Shape := ⟨1, ![128]⟩
abbrev S256 : Shape := ⟨1, ![256]⟩
abbrev S256x128 : Shape := ⟨2, ![256, 128]⟩
abbrev S128x128 : Shape := ⟨2, ![128, 128]⟩
abbrev S3x128 : Shape := ⟨2, ![3, 128]⟩
abbrev S10000x128 : Shape := ⟨2, ![10000, 128]⟩
abbrev S10000x1 : Shape := ⟨2, ![10000, 1]⟩
abbrev S10000x256 : Shape := ⟨2, ![10000, 256]⟩
abbrev S10000 : Shape := ⟨1, ![10000]⟩
abbrev S1x256 : Shape := ⟨2, ![1, 256]⟩
abbrev S_ : Shape := ⟨0, ![]⟩
abbrev S500000x129 : Shape := ⟨2, ![500000, 129]⟩
abbrev S125000x129 : Shape := ⟨2, ![125000, 129]⟩
abbrev S125000x128 : Shape := ⟨2, ![125000, 128]⟩
abbrev S125000x1 : Shape := ⟨2, ![125000, 1]⟩
abbrev S1000000x128 : Shape := ⟨2, ![1000000, 128]⟩
abbrev S25000x3 : Shape := ⟨2, ![25000, 3]⟩
abbrev S25000x128 : Shape := ⟨2, ![25000, 128]⟩
abbrev S25000x1 : Shape := ⟨2, ![25000, 1]⟩

abbrev nBuf : Space → Nat
  | .hbm => 30
  | .vmem => 20
  | .smem => 0
  | _ => 0

abbrev bufTy : (tb : Table) → Fin (tcTables nBuf tb) → BufTy
  | .hbm, ⟨0, _⟩ => ⟨S500000x128, .f32⟩
  | .hbm, ⟨1, _⟩ => ⟨S500000x1, .f32⟩
  | .hbm, ⟨2, _⟩ => ⟨S1000000x3, .f32⟩
  | .hbm, ⟨3, _⟩ => ⟨S500000, .i32⟩
  | .hbm, ⟨4, _⟩ => ⟨S1x128, .f32⟩
  | .hbm, ⟨5, _⟩ => ⟨S128, .f32⟩
  | .hbm, ⟨6, _⟩ => ⟨S256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S3x128, .f32⟩
  | .hbm, ⟨13, _⟩ => ⟨S128, .f32⟩
  | .hbm, ⟨14, _⟩ => ⟨S500000x128, .f32⟩
  | .hbm, ⟨15, _⟩ => ⟨S_, .f32⟩
  | .hbm, ⟨16, _⟩ => ⟨S500000x1, .f32⟩
  | .hbm, ⟨17, _⟩ => ⟨S500000x129, .f32⟩
  | .hbm, ⟨18, _⟩ => ⟨S_, .f32⟩
  | .hbm, ⟨19, _⟩ => ⟨S125000x129, .f32⟩
  | .hbm, ⟨20, _⟩ => ⟨S500000x1, .i32⟩
  | .hbm, ⟨21, _⟩ => ⟨S125000x129, .f32⟩
  | .hbm, ⟨22, _⟩ => ⟨S125000x128, .f32⟩
  | .hbm, ⟨23, _⟩ => ⟨S125000x1, .f32⟩
  | .hbm, ⟨24, _⟩ => ⟨S_, .f32⟩
  | .hbm, ⟨25, _⟩ => ⟨S125000x1, .f32⟩
  | .hbm, ⟨26, _⟩ => ⟨S125000x1, .f32⟩
  | .hbm, ⟨27, _⟩ => ⟨S125000x128, .f32⟩
  | .hbm, ⟨28, _⟩ => ⟨S125000x128, .f32⟩
  | .hbm, ⟨29, _⟩ => ⟨S1000000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S1x128, .f32⟩
  | .local _ .vmem, ⟨5, _⟩ => ⟨S128, .f32⟩
  | .local _ .vmem, ⟨6, _⟩ => ⟨S256, .f32⟩
  | .local _ .vmem, ⟨7, _⟩ => ⟨S256, .f32⟩
  | .local _ .vmem, ⟨8, _⟩ => ⟨S256x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S10000x128, .f32⟩
  | .local _ .vmem, ⟨13, _⟩ => ⟨S10000x128, .f32⟩
  | .local _ .vmem, ⟨14, _⟩ => ⟨S25000x3, .f32⟩
  | .local _ .vmem, ⟨15, _⟩ => ⟨S25000x3, .f32⟩
  | .local _ .vmem, ⟨16, _⟩ => ⟨S3x128, .f32⟩
  | .local _ .vmem, ⟨17, _⟩ => ⟨S128, .f32⟩
  | .local _ .vmem, ⟨18, _⟩ => ⟨S25000x128, .f32⟩
  | .local _ .vmem, ⟨19, _⟩ => ⟨S25000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S10000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S25000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S25000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  inb_S1x128_S1x128_0_0 : ∀ a, (![0, 0] : Fin 2 → Nat) a + S1x128.size a ≤ S1x128.size a
  h_S1x128 : 0 < S1x128.numel
  inb_S128_S128_0 : ∀ a, (![0] : Fin 1 → Nat) a + S128.size a ≤ S128.size a
  h_S128 : 0 < S128.numel
  broadcasts_S10000x1_S10000x128 : S10000x1.Broadcasts S10000x128
  broadcasts_S1x128_S10000x128 : S1x128.Broadcasts S10000x128
  shapeCasts_S128_S1x128 : S128.ShapeCasts S1x128
  concatenates_S10000x128_S10000x128_S10000x256_d1 : Shape.Concatenates [S10000x128, S10000x128] S10000x256 1
  inb_S256_S256_0 : ∀ a, (![0] : Fin 1 → Nat) a + S256.size a ≤ S256.size a
  h_S256 : 0 < S256.numel
  reduces_S10000x256_S10000 : S10000x256.Reduces [1] S10000
  shapeCasts_S10000_S10000x1 : S10000.ShapeCasts S10000x1
  broadcasts_S10000x1_S10000x256 : S10000x1.Broadcasts S10000x256
  shapeCasts_S256_S1x256 : S256.ShapeCasts S1x256
  broadcasts_S1x256_S10000x256 : S1x256.Broadcasts S10000x256
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S500000x1 : S_.BroadcastsInDim S500000x1 (![] : Fin 0 → Fin S500000x1.rank)
  concatenates_S500000x128_S500000x1_S500000x129_d1 : Shape.Concatenates [S500000x128, S500000x1] S500000x129 1
  bcast_S_S125000x129 : S_.BroadcastsInDim S125000x129 (![] : Fin 0 → Fin S125000x129.rank)
  bcast_S500000_S500000x1_0 : S500000.BroadcastsInDim S500000x1 (![0] : Fin 1 → Fin S500000x1.rank)
  slices_S125000x129_S125000x128_0_0 : S125000x129.Slices ![0, 0] S125000x128
  slices_S125000x129_S125000x1_0_128 : S125000x129.Slices ![0, 128] S125000x1
  bcast_S_S125000x1 : S_.BroadcastsInDim S125000x1 (![] : Fin 0 → Fin S125000x1.rank)
  bcast_S125000x1_S125000x128_0_1 : S125000x1.BroadcastsInDim S125000x128 (![0, 1] : Fin 2 → Fin S125000x128.rank)
  inb_S25000x3_S25000x3_0_0 : ∀ a, (![0, 0] : Fin 2 → Nat) a + S25000x3.size a ≤ S25000x3.size a
  h_S25000x3 : 0 < S25000x3.numel
  inb_S3x128_S3x128_0_0 : ∀ a, (![0, 0] : Fin 2 → Nat) a + S3x128.size a ≤ S3x128.size a
  h_S3x128 : 0 < S3x128.numel
  slices_S25000x3_o0_0_S25000x1 : S25000x3.Slices ![0, 0] S25000x1
  slices_S3x128_o0_0_S1x128 : S3x128.Slices ![0, 0] S1x128
  shapeCasts_S1x128_S128 : S1x128.ShapeCasts S128
  broadcasts_S25000x1_S25000x128 : S25000x1.Broadcasts S25000x128
  broadcasts_S1x128_S25000x128 : S1x128.Broadcasts S25000x128
  slices_S25000x3_o0_1_S25000x1 : S25000x3.Slices ![0, 1] S25000x1
  slices_S3x128_o1_0_S1x128 : S3x128.Slices ![1, 0] S1x128
  slices_S25000x3_o0_2_S25000x1 : S25000x3.Slices ![0, 2] S25000x1
  slices_S3x128_o2_0_S1x128 : S3x128.Slices ![2, 0] S1x128
  inb_S25000x128_S25000x128_0_0 : ∀ a, (![0, 0] : Fin 2 → Nat) a + S25000x128.size a ≤ S25000x128.size a
  h_S25000x128 : 0 < S25000x128.numel
  dot_S10000x256_S256x128_S10000x128_1_0_0_1_n_n_wf : DotDims.WF S10000x256 S256x128 S10000x128 [1] [0] [0] [1] [] []
  dot_S10000x128_S128x128_S10000x128_1_0_0_1_n_n_wf : DotDims.WF S10000x128 S128x128 S10000x128 [1] [0] [0] [1] [] []
  scatter_S125000x129_S500000x1_S500000x129_1_0_0_1_wf : ScatterDims.WF S125000x129 S500000x1 S500000x129 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S500000x1.size a
  hwx0_1 : ∀ i : grid0.Coords, EltTy.bits .f32 = 32 ∨ (Rect.block (s := S500000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S10000x128.size a ≤ S500000x128.size a
  hwx0_10 : ∀ i : grid0.Coords, EltTy.bits .f32 = 32 ∨ (Rect.block (s := S500000x128) S10000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x3.size a ≤ S1000000x3.size a
  hwx1_0 : ∀ i : grid1.Coords, EltTy.bits .f32 = 32 ∨ (Rect.block (s := S1000000x3) S25000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x128.size a ≤ S3x128.size a
  hwx1_1 : ∀ i : grid1.Coords, EltTy.bits .f32 = 32 ∨ (Rect.block (s := S3x128) S3x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S25000x128.size a ≤ S1000000x128.size a
  hwx1_3 : ∀ i : grid1.Coords, EltTy.bits .f32 = 32 ∨ (Rect.block (s := S1000000x128) S25000x128.size (cc1_transform_3 i) (hinb1_3 i)).WholeWords (EltTy.packing .f32)

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S125000x129_S500000x1_S500000x129_1_0_0_1 : ScatterDims S125000x129 S500000x1 S500000x129 where
  updateWindowDims := [1]
  insertedWindowDims := [0]
  scatterDimsToOperandDims := [0]
  indexVectorDim := 1
  wf := scatter_S125000x129_S500000x1_S500000x129_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S10000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg2) S25000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S3x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S25000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S500000x128 : Shape := ⟨2, ![500000, 128]⟩
abbrev S500000x1 : Shape := ⟨2, ![500000, 1]⟩
abbrev S1000000x3 : Shape := ⟨2, ![1000000, 3]⟩
abbrev S500000 : Shape := ⟨1, ![500000]⟩
abbrev S1x128 : Shape := ⟨2, ![1, 128]⟩
abbrev S128 : Shape := ⟨1, ![128]⟩
abbrev S256 : Shape := ⟨1, ![256]⟩
abbrev S256x128 : Shape := ⟨2, ![256, 128]⟩
abbrev S128x128 : Shape := ⟨2, ![128, 128]⟩
abbrev S3x128 : Shape := ⟨2, ![3, 128]⟩
abbrev S500000x256 : Shape := ⟨2, ![500000, 256]⟩
abbrev S_ : Shape := ⟨0, ![]⟩
abbrev S1x256 : Shape := ⟨2, ![1, 256]⟩
abbrev S125000x128 : Shape := ⟨2, ![125000, 128]⟩
abbrev S125000 : Shape := ⟨1, ![125000]⟩
abbrev S125000x1 : Shape := ⟨2, ![125000, 1]⟩
abbrev S1000000x128 : Shape := ⟨2, ![1000000, 128]⟩

abbrev nBuf : Space → Nat
  | .hbm => 114
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x1, .f32⟩
  | .hbm, ⟨2, _⟩ => ⟨S1000000x3, .f32⟩
  | .hbm, ⟨3, _⟩ => ⟨S500000, .i32⟩
  | .hbm, ⟨4, _⟩ => ⟨S1x128, .f32⟩
  | .hbm, ⟨5, _⟩ => ⟨S128, .f32⟩
  | .hbm, ⟨6, _⟩ => ⟨S256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S3x128, .f32⟩
  | .hbm, ⟨13, _⟩ => ⟨S128, .f32⟩
  | .hbm, ⟨14, _⟩ => ⟨S500000x128, .f32⟩
  | .hbm, ⟨15, _⟩ => ⟨S1x128, .f32⟩
  | .hbm, ⟨16, _⟩ => ⟨S500000x128, .f32⟩
  | .hbm, ⟨17, _⟩ => ⟨S500000x128, .f32⟩
  | .hbm, ⟨18, _⟩ => ⟨S500000x256, .f32⟩
  | .hbm, ⟨19, _⟩ => ⟨S_, .f32⟩
  | .hbm, ⟨20, _⟩ => ⟨S500000, .f32⟩
  | .hbm, ⟨21, _⟩ => ⟨S500000x1, .f32⟩
  | .hbm, ⟨22, _⟩ => ⟨S_, .f32⟩
  | .hbm, ⟨23, _⟩ => ⟨S500000x1, .f32⟩
  | .hbm, ⟨24, _⟩ => ⟨S500000x1, .f32⟩
  | .hbm, ⟨25, _⟩ => ⟨S500000x256, .f32⟩
  | .hbm, ⟨26, _⟩ => ⟨S500000x256, .f32⟩
  | .hbm, ⟨27, _⟩ => ⟨S500000x256, .f32⟩
  | .hbm, ⟨28, _⟩ => ⟨S_, .f32⟩
  | .hbm, ⟨29, _⟩ => ⟨S500000, .f32⟩
  | .hbm, ⟨30, _⟩ => ⟨S500000x1, .f32⟩
  | .hbm, ⟨31, _⟩ => ⟨S_, .f32⟩
  | .hbm, ⟨32, _⟩ => ⟨S500000x1, .f32⟩
  | .hbm, ⟨33, _⟩ => ⟨S500000x1, .f32⟩
  | .hbm, ⟨34, _⟩ => ⟨S500000x256, .f32⟩
  | .hbm, ⟨35, _⟩ => ⟨S500000x256, .f32⟩
  | .hbm, ⟨36, _⟩ => ⟨S_, .f32⟩
  | .hbm, ⟨37, _⟩ => ⟨S500000x1, .f32⟩
  | .hbm, ⟨38, _⟩ => ⟨S500000x1, .f32⟩
  | .hbm, ⟨39, _⟩ => ⟨S500000x1, .f32⟩
  | .hbm, ⟨40, _⟩ => ⟨S500000x256, .f32⟩
  | .hbm, ⟨41, _⟩ => ⟨S500000x256, .f32⟩
  | .hbm, ⟨42, _⟩ => ⟨S1x256, .f32⟩
  | .hbm, ⟨43, _⟩ => ⟨S500000x256, .f32⟩
  | .hbm, ⟨44, _⟩ => ⟨S500000x256, .f32⟩
  | .hbm, ⟨45, _⟩ => ⟨S1x256, .f32⟩
  | .hbm, ⟨46, _⟩ => ⟨S500000x256, .f32⟩
  | .hbm, ⟨47, _⟩ => ⟨S500000x256, .f32⟩
  | .hbm, ⟨48, _⟩ => ⟨S500000x128, .f32⟩
  | .hbm, ⟨49, _⟩ => ⟨S1x128, .f32⟩
  | .hbm, ⟨50, _⟩ => ⟨S500000x128, .f32⟩
  | .hbm, ⟨51, _⟩ => ⟨S500000x128, .f32⟩
  | .hbm, ⟨52, _⟩ => ⟨S_, .f32⟩
  | .hbm, ⟨53, _⟩ => ⟨S_, .f32⟩
  | .hbm, ⟨54, _⟩ => ⟨S500000x128, .f32⟩
  | .hbm, ⟨55, _⟩ => ⟨S500000x128, .i1⟩
  | .hbm, ⟨56, _⟩ => ⟨S_, .f32⟩
  | .hbm, ⟨57, _⟩ => ⟨S500000x128, .f32⟩
  | .hbm, ⟨58, _⟩ => ⟨S500000x128, .i1⟩
  | .hbm, ⟨59, _⟩ => ⟨S_, .f32⟩
  | .hbm, ⟨60, _⟩ => ⟨S_, .f32⟩
  | .hbm, ⟨61, _⟩ => ⟨S500000x128, .f32⟩
  | .hbm, ⟨62, _⟩ => ⟨S500000x128, .f32⟩
  | .hbm, ⟨63, _⟩ => ⟨S500000x128, .f32⟩
  | .hbm, ⟨64, _⟩ => ⟨S_, .f32⟩
  | .hbm, ⟨65, _⟩ => ⟨S500000x128, .f32⟩
  | .hbm, ⟨66, _⟩ => ⟨S500000x128, .f32⟩
  | .hbm, ⟨67, _⟩ => ⟨S500000x128, .f32⟩
  | .hbm, ⟨68, _⟩ => ⟨S_, .f32⟩
  | .hbm, ⟨69, _⟩ => ⟨S500000x128, .f32⟩
  | .hbm, ⟨70, _⟩ => ⟨S500000x128, .f32⟩
  | .hbm, ⟨71, _⟩ => ⟨S500000x128, .f32⟩
  | .hbm, ⟨72, _⟩ => ⟨S1x128, .f32⟩
  | .hbm, ⟨73, _⟩ => ⟨S500000x128, .f32⟩
  | .hbm, ⟨74, _⟩ => ⟨S500000x128, .f32⟩
  | .hbm, ⟨75, _⟩ => ⟨S_, .f32⟩
  | .hbm, ⟨76, _⟩ => ⟨S_, .f32⟩
  | .hbm, ⟨77, _⟩ => ⟨S500000x128, .f32⟩
  | .hbm, ⟨78, _⟩ => ⟨S500000x128, .i1⟩
  | .hbm, ⟨79, _⟩ => ⟨S_, .f32⟩
  | .hbm, ⟨80, _⟩ => ⟨S500000x128, .f32⟩
  | .hbm, ⟨81, _⟩ => ⟨S500000x128, .i1⟩
  | .hbm, ⟨82, _⟩ => ⟨S_, .f32⟩
  | .hbm, ⟨83, _⟩ => ⟨S_, .f32⟩
  | .hbm, ⟨84, _⟩ => ⟨S500000x128, .f32⟩
  | .hbm, ⟨85, _⟩ => ⟨S500000x128, .f32⟩
  | .hbm, ⟨86, _⟩ => ⟨S500000x128, .f32⟩
  | .hbm, ⟨87, _⟩ => ⟨S_, .f32⟩
  | .hbm, ⟨88, _⟩ => ⟨S500000x128, .f32⟩
  | .hbm, ⟨89, _⟩ => ⟨S500000x128, .f32⟩
  | .hbm, ⟨90, _⟩ => ⟨S500000x128, .f32⟩
  | .hbm, ⟨91, _⟩ => ⟨S_, .f32⟩
  | .hbm, ⟨92, _⟩ => ⟨S500000x128, .f32⟩
  | .hbm, ⟨93, _⟩ => ⟨S500000x128, .f32⟩
  | .hbm, ⟨94, _⟩ => ⟨S_, .f32⟩
  | .hbm, ⟨95, _⟩ => ⟨S125000x128, .f32⟩
  | .hbm, ⟨96, _⟩ => ⟨S500000x1, .i32⟩
  | .hbm, ⟨97, _⟩ => ⟨S125000x128, .f32⟩
  | .hbm, ⟨98, _⟩ => ⟨S_, .f32⟩
  | .hbm, ⟨99, _⟩ => ⟨S500000, .f32⟩
  | .hbm, ⟨100, _⟩ => ⟨S_, .f32⟩
  | .hbm, ⟨101, _⟩ => ⟨S125000, .f32⟩
  | .hbm, ⟨102, _⟩ => ⟨S500000x1, .i32⟩
  | .hbm, ⟨103, _⟩ => ⟨S125000, .f32⟩
  | .hbm, ⟨104, _⟩ => ⟨S_, .f32⟩
  | .hbm, ⟨105, _⟩ => ⟨S125000, .f32⟩
  | .hbm, ⟨106, _⟩ => ⟨S125000, .f32⟩
  | .hbm, ⟨107, _⟩ => ⟨S125000x1, .f32⟩
  | .hbm, ⟨108, _⟩ => ⟨S125000x128, .f32⟩
  | .hbm, ⟨109, _⟩ => ⟨S125000x128, .f32⟩
  | .hbm, ⟨110, _⟩ => ⟨S1000000x128, .f32⟩
  | .hbm, ⟨111, _⟩ => ⟨S1x128, .f32⟩
  | .hbm, ⟨112, _⟩ => ⟨S1000000x128, .f32⟩
  | .hbm, ⟨113, _⟩ => ⟨S1000000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_call0_cst : Ref sig .tc := ⟨.hbm, 53, rfl⟩
abbrev main_call0_call0_v0 : Ref sig .tc := ⟨.hbm, 54, rfl⟩
abbrev main_call0_call0_v1 : Ref sig .tc := ⟨.hbm, 55, rfl⟩
abbrev main_call0_call0_cst_0 : Ref sig .tc := ⟨.hbm, 56, rfl⟩
abbrev main_call0_call0_v2 : Ref sig .tc := ⟨.hbm, 57, rfl⟩
abbrev main_call0_call0_v3 : Ref sig .tc := ⟨.hbm, 58, rfl⟩
abbrev main_call0_call0_cst_1 : Ref sig .tc := ⟨.hbm, 59, rfl⟩
abbrev main_call0_call0_call0_v0 : Ref sig .tc := ⟨.hbm, 60, rfl⟩
abbrev main_call0_call0_call0_v1 : Ref sig .tc := ⟨.hbm, 61, rfl⟩
abbrev main_call0_call0_v4 : Ref sig .tc := ⟨.hbm, 62, rfl⟩
abbrev main_call0_call0_v5 : Ref sig .tc := ⟨.hbm, 63, rfl⟩
abbrev main_call0_call0_v6 : Ref sig .tc := ⟨.hbm, 64, rfl⟩
abbrev main_call0_call0_v7 : Ref sig .tc := ⟨.hbm, 65, rfl⟩
abbrev main_call0_call0_v8 : Ref sig .tc := ⟨.hbm, 66, rfl⟩
abbrev main_call0_v0 : Ref sig .tc := ⟨.hbm, 67, rfl⟩
abbrev main_call0_cst_0 : Ref sig .tc := ⟨.hbm, 68, rfl⟩
abbrev main_call0_v1 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_call1_cst : Ref sig .tc := ⟨.hbm, 75, rfl⟩
abbrev main_call1_call0_cst : Ref sig .tc := ⟨.hbm, 76, rfl⟩
abbrev main_call1_call0_v0 : Ref sig .tc := ⟨.hbm, 77, rfl⟩
abbrev main_call1_call0_v1 : Ref sig .tc := ⟨.hbm, 78, rfl⟩
abbrev main_call1_call0_cst_0 : Ref sig .tc := ⟨.hbm, 79, rfl⟩
abbrev main_call1_call0_v2 : Ref sig .tc := ⟨.hbm, 80, rfl⟩
abbrev main_call1_call0_v3 : Ref sig .tc := ⟨.hbm, 81, rfl⟩
abbrev main_call1_call0_cst_1 : Ref sig .tc := ⟨.hbm, 82, rfl⟩
abbrev main_call1_call0_call0_v0 : Ref sig .tc := ⟨.hbm, 83, rfl⟩
abbrev main_call1_call0_call0_v1 : Ref sig .tc := ⟨.hbm, 84, rfl⟩
abbrev main_call1_call0_v4 : Ref sig .tc := ⟨.hbm, 85, rfl⟩
abbrev main_call1_call0_v5 : Ref sig .tc := ⟨.hbm, 86, rfl⟩
abbrev main_call1_call0_v6 : Ref sig .tc := ⟨.hbm, 87, rfl⟩
abbrev main_call1_call0_v7 : Ref sig .tc := ⟨.hbm, 88, rfl⟩
abbrev main_call1_call0_v8 : Ref sig .tc := ⟨.hbm, 89, rfl⟩
abbrev main_call1_v0 : Ref sig .tc := ⟨.hbm, 90, rfl⟩
abbrev main_call1_cst_0 : Ref sig .tc := ⟨.hbm, 91, rfl⟩
abbrev main_call1_v1 : Ref sig .tc := ⟨.hbm, 92, rfl⟩
abbrev main_v38 : Ref sig .tc := ⟨.hbm, 93, rfl⟩
abbrev main_cst_4 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_cst_5 : Ref sig .tc := ⟨.hbm, 98, rfl⟩
abbrev main_v42 : Ref sig .tc := ⟨.hbm, 99, rfl⟩
abbrev main_cst_6 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_cst_7 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  concatenates_S500000x128_S500000x128_S500000x256_d1 : Shape.Concatenates [S500000x128, S500000x128] S500000x256 1
  reducesTo_S500000x256_S500000_d1 : S500000x256.ReducesTo [1] S500000
  h_S_ : 0 < S_.numel
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S500000x1_S500000x256_0_1 : S500000x1.BroadcastsInDim S500000x256 (![0, 1] : Fin 2 → Fin S500000x256.rank)
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x128 : S_.BroadcastsInDim S500000x128 (![] : Fin 0 → Fin S500000x128.rank)
  bcast_S_S125000x128 : S_.BroadcastsInDim S125000x128 (![] : Fin 0 → Fin S125000x128.rank)
  bcast_S_S500000 : S_.BroadcastsInDim S500000 (![] : Fin 0 → Fin S500000.rank)
  bcast_S_S125000 : S_.BroadcastsInDim S125000 (![] : Fin 0 → Fin S125000.rank)
  bcast_S125000_S125000x1_0 : S125000.BroadcastsInDim S125000x1 (![0] : Fin 1 → Fin S125000x1.rank)
  bcast_S125000x1_S125000x128_0_1 : S125000x1.BroadcastsInDim S125000x128 (![0, 1] : Fin 2 → Fin S125000x128.rank)
  bcast_S1x128_S1000000x128_0_1 : S1x128.BroadcastsInDim S1000000x128 (![0, 1] : Fin 2 → Fin S1000000x128.rank)
  dot_S500000x1_S1x128_S500000x128_1_0_0_1_n_n_wf : DotDims.WF S500000x1 S1x128 S500000x128 [1] [0] [0] [1] [] []
  dot_S500000x256_S256x128_S500000x128_1_0_0_1_n_n_wf : DotDims.WF S500000x256 S256x128 S500000x128 [1] [0] [0] [1] [] []
  dot_S500000x128_S128x128_S500000x128_1_0_0_1_n_n_wf : DotDims.WF S500000x128 S128x128 S500000x128 [1] [0] [0] [1] [] []
  scatter_S125000x128_S500000x1_S500000x128_1_0_0_1_wf : ScatterDims.WF S125000x128 S500000x1 S500000x128 [1] [0] [0] 1
  scatter_S125000_S500000x1_S500000_n_0_0_1_wf : ScatterDims.WF S125000 S500000x1 S500000 [] [0] [0] 1
  dot_S1000000x3_S3x128_S1000000x128_1_0_0_1_n_n_wf : DotDims.WF S1000000x3 S3x128 S1000000x128 [1] [0] [0] [1] [] []

variable [Facts₀]

def dot_S500000x1_S1x128_S500000x128_1_0_0_1_n_n : DotDims S500000x1 S1x128 S500000x128 where
  lhsContracting := [1]
  rhsContracting := [0]
  lhsNonContracting := [0]
  rhsNonContracting := [1]
  lhsBatch := []
  rhsBatch := []
  wf := dot_S500000x1_S1x128_S500000x128_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S125000x128_S500000x1_S500000x128_1_0_0_1 : ScatterDims S125000x128 S500000x1 S500000x128 where
  updateWindowDims := [1]
  insertedWindowDims := [0]
  scatterDimsToOperandDims := [0]
  indexVectorDim := 1
  wf := scatter_S125000x128_S500000x1_S500000x128_1_0_0_1_wf
def scatter_S125000_S500000x1_S500000_n_0_0_1 : ScatterDims S125000 S500000x1 S500000 where
  updateWindowDims := []
  insertedWindowDims := [0]
  scatterDimsToOperandDims := [0]
  indexVectorDim := 1
  wf := scatter_S125000_S500000x1_S500000_n_0_0_1_wf
def dot_S1000000x3_S3x128_S1000000x128_1_0_0_1_n_n : DotDims S1000000x3 S3x128 S1000000x128 where
  lhsContracting := [1]
  rhsContracting := [0]
  lhsNonContracting := [0]
  rhsNonContracting := [1]
  lhsBatch := []
  rhsBatch := []
  wf := dot_S1000000x3_S3x128_S1000000x128_1_0_0_1_n_n_wf

class Facts : Prop extends Facts₀ where

variable [Facts]
-- ==== Proof.KRun.lean ====
/-
  The idealized kernel program's run with its final memory named. The program is three segments in a row: the first
  pipelined region (the row network over the high-resolution nodes), a stretch of host operations (the ones column, the
  accumulating scatter, the two slices, the maximum with one and the quotient), and the second pipelined region (the
  low-resolution edge encoder). Every weakly fair execution terminates without a fault, and in every final state each
  buffer that is not scoped to a region holds the last boundary's contents: the launch memory folded through the first
  region's write-backs, the host stretch, and the second region's write-backs.
-/
import proofs.«159303_j62947040690378_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every final state holds, at each buffer
    that no region scopes, the contents of the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.KRun

end
-- ==== Proof.Spec.lean ====
/-
  The two results as mathematics, row by row, over the extended reals.

  A high-resolution node's row: the scalar edge feature times the encoder row plus the encoder bias (128 entries), followed
  by the node's 128 input features, gives 256 entries; these are normalised (mean and variance over the 256 entries, both
  as quotients by the word 256, the reciprocal square root of the variance plus the word 1e-5, then gain and offset);
  two dense layers follow, each a sum of products over the input entries plus a bias, each passed through the scaled
  exponential linear unit. A low-resolution node's row is the mean of the rows of the high-resolution nodes assigned to
  it: their sum, over the number of them or one if there is none. A low-resolution edge's row is its three attributes
  against the three encoder rows, plus a bias.
-/
import Idealize.ShloMosaic.PureOps.Ideal.Laws
import Idealize.ShloMosaic.Lib.IdealHost
import Idealize.ShloMosaic.Lib.ValueIdx

noncomputable section

namespace Cert.Spec

open Idealize.ShloMosaic
open scoped BigOperators

/-- A 32-bit float word read as the extended real it denotes. -/
abbrev word (b : BitVec 32) : EReal := Ideal.ofBits .f32 b

/-- The 256 entries of a node before normalisation: the encoded edge feature, then the node's own features. -/
def encCat (e : EReal) (v wenc benc : Fin 128 → EReal) (k : Fin 256) : EReal :=
  if h : k.val < 128 then e * wenc ⟨k.val, h⟩ + benc ⟨k.val, h⟩ else v ⟨k.val - 128, by omega⟩

/-- The mean of 256 entries: their sum over the word 256. -/
def rowMean (x : Fin 256 → EReal) : EReal := Ideal.div (∑ k, x k) (word 0x43800000#32)

/-- The variance of 256 entries: the sum of the squared deviations from the mean over the word 256. -/
def rowVar (x : Fin 256 → EReal) : EReal :=
  Ideal.div (∑ k, (x k - rowMean x) * (x k - rowMean x)) (word 0x43800000#32)

/-- Normalisation of 256 entries with gain `g` and offset `b`. -/
def layerNorm (x g b : Fin 256 → EReal) (k : Fin 256) : EReal :=
  (x k - rowMean x) * Ideal.rsqrt (rowVar x + word 0x3727C5AC#32) * g k + b k

/-- The scaled exponential linear unit: the scale word times `x` where `x` exceeds zero, and times the alpha word times
    `exp x - 1` elsewhere. -/
def selu (x : EReal) : EReal :=
  word 0x3F867D5F#32 *
    Scalar.select (Ideal.cmp .ogt x (word 0x00000000#32)) x (word 0x3FD62D7D#32 * (Ideal.exp x - word 0x3F800000#32))

/-- A dense layer into 128 outputs: a sum of products over the inputs, plus a bias. -/
def dense {K : ℕ} (x : Fin K → EReal) (w : Fin K → Fin 128 → EReal) (b : Fin 128 → EReal) (j : Fin 128) : EReal :=
  (∑ k, x k * w k j) + b j

/-- A high-resolution node's output row. -/
def nodeRow (e : EReal) (v wenc benc : Fin 128 → EReal) (g b : Fin 256 → EReal) (w0 : Fin 256 → Fin 128 → EReal)
    (b0 : Fin 128 → EReal) (w1 : Fin 128 → Fin 128 → EReal) (b1 : Fin 128 → EReal) (j : Fin 128) : EReal :=
  selu (dense (fun k => selu (dense (layerNorm (encCat e v wenc benc) g b) w0 b0 k)) w1 b1 j)

/-- A low-resolution edge's output row. -/
def edgeRow (a : Fin 3 → EReal) (w : Fin 3 → Fin 128 → EReal) (b : Fin 128 → EReal) (j : Fin 128) : EReal :=
  a 0 * w 0 j + a 1 * w 1 j + a 2 * w 2 j + b j

/-- The mean over a segment: from the zero word, the sum of the rows assigned to segment `s`, over the number of such rows
    (counted from the zero word in steps of the word one) or the word one, whichever is greater. -/
def segMean {N : ℕ} (seg : Fin N → Int) (h : Fin N → Fin 128 → EReal) (s : ℕ) (j : Fin 128) : EReal :=
  Ideal.div (word 0x00000000#32 + ∑ i ∈ Finset.univ.filter (fun i => seg i = (s : Int)), h i j)
    (max (word 0x00000000#32 + ∑ i ∈ Finset.univ.filter (fun i => seg i = (s : Int)), word 0x3F800000#32) (word 0x3F800000#32))

end Cert.Spec

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibRowLift.lean ====
/-
  A row index lifted back along the columns: for a reduction of `[M, N]` along its columns to `[M]`, the source index over
  row `r` with column coordinate `k` is `(r, k)`.
-/
import Idealize.ShloMosaic.Lib.ValueIdx
import Idealize.ShloMosaic.PureOps.Ideal.Laws

namespace Cert.RowLift

open Idealize.ShloMosaic Idealize.ShloMosaic.ValueIdx

/-- The source index over row `r` whose coordinate on the reduced column axis is `k` is `(r, k)`. -/
theorem lift_row {M N : ℕ} (h : (⟨2, ![M, N]⟩ : Shape).Reduces [(1 : Fin 2)] ⟨1, ![M]⟩) (r : Fin M) (k : Fin N) :
    h.lift (ix1 r) k = ix2 r k := by
  funext c
  apply Fin.ext
  match c with
  | ⟨0, _⟩ => rfl
  | ⟨1, _⟩ => rfl

end Cert.RowLift
-- ==== Proof.KBody0.lean ====
/-
  The first region's body, in stages. One grid point loads a block of 10000 rows of node features and of the scalar
  edge feature together with the whole parameter arrays, and stores a block of 10000 output rows. Its arithmetic is, in
  order: the 256 entries per row (encoded edge feature beside the node features); their normalisation; the first dense
  layer as a matrix product into a zero accumulator; then bias, activation, the second matrix product, bias, activation.
  The stages are stated here as functions of the loaded blocks and read at a row and a column.
-/
import proofs.«159303_j62947040690378_2_alg».proof.Proof.Gen.KernelIdeal.Skeleton
import proofs.«159303_j62947040690378_2_alg».proof.Proof.Spec
import proofs.«159303_j62947040690378_2_alg».proof.Proof.LibDenseRows
import proofs.«159303_j62947040690378_2_alg».proof.Proof.LibColumnLayout
import proofs.«159303_j62947040690378_2_alg».proof.Proof.LibRowLift

noncomputable section

namespace Cert.KernelIdeal.KBody0

open Idealize.ShloMosaic Idealize.ShloMosaic.ValueIdx Idealize.SL.Sem
open Cert.KernelIdeal Cert.KernelIdeal.Facts₀ Cert.KernelIdeal.Facts
open Cert.KernelIdeal.Gen (k0_pay1 k0_pay2)
open Cert.Spec Cert.DenseRows Cert.ColumnLayout
open scoped BigOperators

variable [Cert.KernelIdeal.Facts]

/-- The 256 entries of each of the block's rows: edge feature times encoder row plus encoder bias, then the node's features. -/
def catBlk (v0 : FVec Ideal S10000x128 .f32) (v1 : FVec Ideal S10000x1 .f32) (v2 : FVec Ideal S1x128 .f32) (v3 : FVec Ideal S128 .f32) :
    FVec Ideal S10000x256 .f32 :=
  concatenate S10000x256 1
    [⟨S10000x128, addf (mulf (broadcastTo S10000x128 v1 broadcasts_S10000x1_S10000x128) (broadcastTo S10000x128 v2 broadcasts_S1x128_S10000x128))
        (broadcastTo S10000x128 (shapeCast S1x128 v3 shapeCasts_S128_S1x128) broadcasts_S1x128_S10000x128)⟩, ⟨S10000x128, v0⟩]
    concatenates_S10000x128_S10000x128_S10000x256_d1

/-- A sum along each row, laid out as a column and divided by the word 256. -/
def colMean (x : FVec Ideal S10000x256 .f32) : FVec Ideal S10000x1 .f32 :=
  divf (shapeCast S10000x1 (multiReduction .add [1] S10000 x 0x00000000#32 reduces_S10000x256_S10000 (.inl rfl) rfl) shapeCasts_S10000_S10000x1)
    (broadcast S10000x1 (Scalar.ofBits .f32 0x43800000#32))

/-- The deviations from the row mean. -/
def centred (x : FVec Ideal S10000x256 .f32) : FVec Ideal S10000x256 .f32 :=
  subf x (broadcastTo S10000x256 (colMean x) broadcasts_S10000x1_S10000x256)

/-- The normalised rows with gain and offset. -/
def lnBlk (x : FVec Ideal S10000x256 .f32) (v11 v12 : FVec Ideal S256 .f32) : FVec Ideal S10000x256 .f32 :=
  addf (mulf (mulf (centred x)
      (broadcastTo S10000x256 (rsqrt (addf (colMean (mulf (centred x) (centred x))) (broadcast S10000x1 (Scalar.ofBits .f32 0x3727C5AC#32))))
        broadcasts_S10000x1_S10000x256))
      (broadcastTo S10000x256 (shapeCast S1x256 v11 shapeCasts_S256_S1x256) broadcasts_S1x256_S10000x256))
    (broadcastTo S10000x256 (shapeCast S1x256 v12 shapeCasts_S256_S1x256) broadcasts_S1x256_S10000x256)

/-- The first matrix product, into a zero accumulator. -/
def mm0 (x : FVec Ideal S10000x256 .f32) (v37 : FVec Ideal S256x128 .f32) : FVec Ideal S10000x128 .f32 :=
  matmul dot_S10000x256_S256x128_S10000x128_1_0_0_1_n_n none (truncf .bf16 x bitsLt_bf16_f32) (truncf .bf16 v37 bitsLt_bf16_f32)
    (constant S10000x128 .f32 0x00000000#32)

/-- Bias along the rows, then the activation, entry by entry. -/
def biasAct (x : FVec Ideal S10000x128 .f32) (b : FVec Ideal S128 .f32) : FVec Ideal S10000x128 .f32 :=
  mulf (broadcast S10000x128 (Scalar.ofBits .f32 0x3F867D5F#32))
    (select (cmpf .ogt (addf x (broadcastTo S10000x128 (shapeCast S1x128 b shapeCasts_S128_S1x128) broadcasts_S1x128_S10000x128))
        (broadcast S10000x128 (Scalar.ofBits .f32 0x00000000#32)))
      (addf x (broadcastTo S10000x128 (shapeCast S1x128 b shapeCasts_S128_S1x128) broadcasts_S1x128_S10000x128))
      (mulf (broadcast S10000x128 (Scalar.ofBits .f32 0x3FD62D7D#32))
        (subf (exp (addf x (broadcastTo S10000x128 (shapeCast S1x128 b shapeCasts_S128_S1x128) broadcasts_S1x128_S10000x128)))
          (broadcast S10000x128 (Scalar.ofBits .f32 0x3F800000#32)))))

/-- The second matrix product, into a zero accumulator. -/
def mm1 (x : FVec Ideal S10000x128 .f32) (v55 : FVec Ideal S128x128 .f32) : FVec Ideal S10000x128 .f32 :=
  matmul dot_S10000x128_S128x128_S10000x128_1_0_0_1_n_n none (truncf .bf16 x bitsLt_bf16_f32) (truncf .bf16 v55 bitsLt_bf16_f32)
    (constant S10000x128 .f32 0x00000000#32)

/-- The first generated payload is the first four stages composed. -/
theorem pay2_eq (v0 : Vec Ideal S10000x128 .f32) (v1 : Vec Ideal S10000x1 .f32) (v2 : Vec Ideal S1x128 .f32) (v3 : Vec Ideal S128 .f32)
    (v11 v12 : Vec Ideal S256 .f32) (v37 : Vec Ideal S256x128 .f32) :
    k0_pay2 (F := Ideal) v0 v1 v2 v3 v11 v12 v37 = mm0 (lnBlk (catBlk v0 v1 v2 v3) v11 v12) v37 := rfl

/-- The second generated payload is the remaining stages composed. -/
theorem pay1_eq (v40 : FVec Ideal S10000x128 .f32) (v41 : Vec Ideal S128 .f32) (v55 : Vec Ideal S128x128 .f32) (v59 : Vec Ideal S128 .f32) :
    k0_pay1 (F := Ideal) v40 v41 v55 v59 = biasAct (mm1 (biasAct v40 v41) v55) v59 := rfl

/-! ## Each stage at a row and a column -/

theorem exp_apply {s : Shape} {φ : FTy} (v : FVec Ideal s φ) (i : s.Idx) : exp v i = Ideal.exp (v i) := rfl
theorem rsqrt_apply {s : Shape} {φ : FTy} (v : FVec Ideal s φ) (i : s.Idx) : rsqrt v i = Ideal.rsqrt (v i) := rfl

/-- Entry `k` of row `p`: left of column 128 the encoded edge feature, from there on the node's own feature. -/
theorem catBlk_apply (v0 : FVec Ideal S10000x128 .f32) (v1 : FVec Ideal S10000x1 .f32) (v2 : FVec Ideal S1x128 .f32) (v3 : FVec Ideal S128 .f32)
    (p : Fin 10000) (k : Fin 256) :
    catBlk v0 v1 v2 v3 (ix2 p k)
      = encCat (v1 (ix2 p (0 : Fin 1))) (fun a => v0 (ix2 p a)) (fun a => v2 (ix2 (0 : Fin 1) a)) (fun a => v3 (ix1 a)) k := by
  unfold catBlk encCat
  by_cases h : k.val < 128
  · rw [dif_pos h]
    refine (concat_cols_left _ _ concatenates_S10000x128_S10000x128_S10000x256_d1 p k h).trans ?_
    rw [addf_apply, mulf_apply, broadcastTo_a1_ab_apply, broadcastTo_1b_ab_apply, rowBias_cast_apply]
  · rw [dif_neg h]
    exact concat_cols_right _ _ concatenates_S10000x128_S10000x128_S10000x256_d1 p k (by omega) (by have := k.isLt; omega)

/-- The column of row means: the row's sum over the word 256. -/
theorem colMean_apply (x : FVec Ideal S10000x256 .f32) (p : Fin 10000) (u : Fin 1) :
    colMean x (ix2 p u) = Ideal.div (∑ k : Fin 256, x (ix2 p k)) (word 0x43800000#32) := by
  unfold colMean
  rw [divf_apply, shapeCast_a_a1_apply, broadcast_apply,
    laneSum_apply x reduces_S10000x256_S10000 (.inl rfl) rfl (Cert.RowLift.lift_row reduces_S10000x256_S10000) p]
  rfl

/-- A row's entry less the row's mean. -/
theorem centred_apply (x : FVec Ideal S10000x256 .f32) (p : Fin 10000) (k : Fin 256) :
    centred x (ix2 p k) = x (ix2 p k) - rowMean (fun a => x (ix2 p a)) := by
  unfold centred rowMean
  rw [subf_apply, broadcastTo_a1_ab_apply, colMean_apply]

/-- The normalised entry. -/
theorem lnBlk_apply (x : FVec Ideal S10000x256 .f32) (v11 v12 : FVec Ideal S256 .f32) (p : Fin 10000) (k : Fin 256) :
    lnBlk x v11 v12 (ix2 p k) = layerNorm (fun a => x (ix2 p a)) (fun a => v11 (ix1 a)) (fun a => v12 (ix1 a)) k := by
  unfold lnBlk layerNorm rowVar
  rw [addf_apply, mulf_apply, mulf_apply, centred_apply, broadcastTo_a1_ab_apply, rowBias_cast_apply, rowBias_cast_apply,
    rsqrt_apply, addf_apply, colMean_apply, broadcast_apply]
  simp only [mulf_apply, centred_apply]
  rfl

/-- The first matrix product at `(p, j)`: the row against column `j`. -/
theorem mm0_apply (x : FVec Ideal S10000x256 .f32) (v37 : FVec Ideal S256x128 .f32) (p : Fin 10000) (j : Fin 128) :
    mm0 x v37 (ix2 p j) = ∑ k : Fin 256, x (ix2 p k) * v37 (ix2 k j) := by
  unfold mm0
  exact matmul_zero_plain_apply dot_S10000x256_S256x128_S10000x128_1_0_0_1_n_n rfl rfl rfl rfl (fun _ _ => rfl) (fun _ _ => rfl)
    (truncf .bf16 x bitsLt_bf16_f32) (truncf .bf16 v37 bitsLt_bf16_f32) p j

/-- The second matrix product at `(p, j)`. -/
theorem mm1_apply (x : FVec Ideal S10000x128 .f32) (v55 : FVec Ideal S128x128 .f32) (p : Fin 10000) (j : Fin 128) :
    mm1 x v55 (ix2 p j) = ∑ k : Fin 128, x (ix2 p k) * v55 (ix2 k j) := by
  unfold mm1
  exact matmul_zero_plain_apply dot_S10000x128_S128x128_S10000x128_1_0_0_1_n_n rfl rfl rfl rfl (fun _ _ => rfl) (fun _ _ => rfl)
    (truncf .bf16 x bitsLt_bf16_f32) (truncf .bf16 v55 bitsLt_bf16_f32) p j

/-- Bias and activation at `(p, j)`. -/
theorem biasAct_apply (x : FVec Ideal S10000x128 .f32) (b : FVec Ideal S128 .f32) (p : Fin 10000) (j : Fin 128) :
    biasAct x b (ix2 p j) = selu (x (ix2 p j) + b (ix1 j)) := by
  unfold biasAct selu
  simp only [mulf_apply, select_apply, cmpf_apply, exp_apply, addf_apply, subf_apply, broadcast_apply, rowBias_cast_apply]
  rfl

/-- THE BODY AT A ROW AND A COLUMN: what the point stores at `(p, j)` is the node row of the loaded blocks' row `p`. -/
theorem pay_apply (v0 : Vec Ideal S10000x128 .f32) (v1 : Vec Ideal S10000x1 .f32) (v2 : Vec Ideal S1x128 .f32) (v3 : Vec Ideal S128 .f32)
    (v11 v12 : Vec Ideal S256 .f32) (v37 : Vec Ideal S256x128 .f32) (v41 : Vec Ideal S128 .f32) (v55 : Vec Ideal S128x128 .f32)
    (v59 : Vec Ideal S128 .f32) (p : Fin 10000) (j : Fin 128) :
    k0_pay1 (F := Ideal) (k0_pay2 (F := Ideal) v0 v1 v2 v3 v11 v12 v37) v41 v55 v59 (ix2 p j)
      = nodeRow (v1 (ix2 p (0 : Fin 1))) (fun a => v0 (ix2 p a)) (fun a => v2 (ix2 (0 : Fin 1) a)) (fun a => v3 (ix1 a))
          (fun a => v11 (ix1 a)) (fun a => v12 (ix1 a)) (fun k a => v37 (ix2 k a)) (fun a => v41 (ix1 a))
          (fun k a => v55 (ix2 k a)) (fun a => v59 (ix1 a)) j := by
  rw [pay2_eq, pay1_eq]
  unfold nodeRow dense
  rw [biasAct_apply, mm1_apply]
  simp only [biasAct_apply, mm0_apply, lnBlk_apply, catBlk_apply]

end Cert.KernelIdeal.KBody0

end
-- ==== Proof.KValue0.lean ====
/-
  The first region's output array as ONE function of the arrays the region finds: grid point `t` reads rows
  `10000·t … 10000·t + 9999` of the node features and of the edge feature and the whole of every parameter array, and writes
  back the same rows of the output, each the node row of its inputs' row. The fifty points' blocks tile the 500000 rows, so
  after the region the output array is, at every row `i` and column `j`, the node row of the arrays' row `i`.
-/
import proofs.«159303_j62947040690378_2_alg».proof.Proof.Gen.KernelIdeal.Frame
import proofs.«159303_j62947040690378_2_alg».proof.Proof.KBody0
import Idealize.ShloMosaic.Lib.Pipeline.Value

set_option maxRecDepth 16384

noncomputable section

namespace Cert.KernelIdeal.KValue0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Spec

variable (V : (c : Dev nD) → (b : Ref sig .tc) → Buf (Elt Ideal) ((c : Thread nD τ).loc b))

/-- The output array as a function of the argument arrays: row `i`, column `j` is the node row of row `i`. -/
def G (a0 : FVec Ideal S500000x128 .f32) (a1 : FVec Ideal S500000x1 .f32) (a4 : FVec Ideal S1x128 .f32) (a5 : FVec Ideal S128 .f32)
    (a6 a7 : FVec Ideal S256 .f32) (a8 : FVec Ideal S256x128 .f32) (a9 : FVec Ideal S128 .f32) (a10 : FVec Ideal S128x128 .f32)
    (a11 : FVec Ideal S128 .f32) : FVec Ideal S500000x128 .f32 :=
  fun i => nodeRow (a1 (ix2 (i 0) (0 : Fin 1))) (fun a => a0 (ix2 (i 0) a)) (fun a => a4 (ix2 (0 : Fin 1) a)) (fun a => a5 (ix1 a))
    (fun a => a6 (ix1 a)) (fun a => a7 (ix1 a)) (fun k a => a8 (ix2 k a)) (fun a => a9 (ix1 a)) (fun k a => a10 (ix2 k a))
    (fun a => a11 (ix1 a)) (i 1)

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the row-blocked windows sit at block row `t`, every parameter window at
    block zero on every axis. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 1) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0 :=
  (by decide +kernel : ∀ t : Fin grid0.N, _)

/-! ## Each window's block at a point, read off its array -/

/-- Row `p` of the node-feature block at point `t` is row `10000·t + p` of the array. -/
theorem blk_0 (c : Dev nD) (t : Fin cfg0.N) (p : Fin 10000) (i : Fin 500000) (hi : i.val = t.val * 10000 + p.val) (a : Fin 128) :
    iblk0 V c 0 t (ix2 p a) = V c main_arg0 (ix2 i a) := by
  obtain ⟨e0, e1, -⟩ := idx_facts t
  show V c main_arg0 (((cfg0.win 0).blk t).view.emb (ix2 p a)) = _
  refine congrArg (V c main_arg0) ?_
  funext ax; apply Fin.ext
  match ax with
  | ⟨0, _⟩ => show win0_0.index t (0 : Fin 2) * 10000 + 1 * p.val = i.val; omega
  | ⟨1, _⟩ => show win0_0.index t (1 : Fin 2) * 128 + 1 * a.val = a.val; omega

/-- Row `p` of the edge-feature block at point `t` is row `10000·t + p` of the array. -/
theorem blk_1 (c : Dev nD) (t : Fin cfg0.N) (p : Fin 10000) (i : Fin 500000) (hi : i.val = t.val * 10000 + p.val) (u : Fin 1) :
    iblk0 V c 1 t (ix2 p u) = V c main_arg1 (ix2 i u) := by
  obtain ⟨-, -, e2, e3, -⟩ := idx_facts t
  show V c main_arg1 (((cfg0.win 1).blk t).view.emb (ix2 p u)) = _
  refine congrArg (V c main_arg1) ?_
  funext ax; apply Fin.ext
  match ax with
  | ⟨0, _⟩ => show win0_1.index t (0 : Fin 2) * 10000 + 1 * p.val = i.val; omega
  | ⟨1, _⟩ => show win0_1.index t (1 : Fin 2) * 1 + 1 * u.val = u.val; omega

/-- A parameter window's block is its whole array, at every point. -/
theorem blk_2 (c : Dev nD) (t : Fin cfg0.N) (y : S1x128.Idx) : iblk0 V c 2 t y = V c main_arg4 y := by
  obtain ⟨-, -, -, -, e4, e5, -⟩ := idx_facts t
  show V c main_arg4 (((cfg0.win 2).blk t).view.emb y) = _
  refine congrArg (V c main_arg4) ?_
  funext ax; apply Fin.ext
  match ax with
  | ⟨0, _⟩ => show win0_2.index t (0 : Fin 2) * 1 + 1 * (y 0).val = (y 0).val; omega
  | ⟨1, _⟩ => show win0_2.index t (1 : Fin 2) * 128 + 1 * (y 1).val = (y 1).val; omega

theorem blk_3 (c : Dev nD) (t : Fin cfg0.N) (y : S128.Idx) : iblk0 V c 3 t y = V c main_arg5 y := by
  obtain ⟨-, -, -, -, -, -, e6, -⟩ := idx_facts t
  show V c main_arg5 (((cfg0.win 3).blk t).view.emb y) = _
  refine congrArg (V c main_arg5) ?_
  funext ax; apply Fin.ext
  match ax with
  | ⟨0, _⟩ => show win0_3.index t (0 : Fin 1) * 128 + 1 * (y 0).val = (y 0).val; omega

theorem blk_4 (c : Dev nD) (t : Fin cfg0.N) (y : S256.Idx) : iblk0 V c 4 t y = V c main_arg6 y := by
  obtain ⟨-, -, -, -, -, -, -, e7, -⟩ := idx_facts t
  show V c main_arg6 (((cfg0.win 4).blk t).view.emb y) = _
  refine congrArg (V c main_arg6) ?_
  funext ax; apply Fin.ext
  match ax with
  | ⟨0, _⟩ => show win0_4.index t (0 : Fin 1) * 256 + 1 * (y 0).val = (y 0).val; omega

theorem blk_5 (c : Dev nD) (t : Fin cfg0.N) (y : S256.Idx) : iblk0 V c 5 t y = V c main_arg7 y := by
  obtain ⟨-, -, -, -, -, -, -, -, e8, -⟩ := idx_facts t
  show V c main_arg7 (((cfg0.win 5).blk t).view.emb y) = _
  refine congrArg (V c main_arg7) ?_
  funext ax; apply Fin.ext
  match ax with
  | ⟨0, _⟩ => show win0_5.index t (0 : Fin 1) * 256 + 1 * (y 0).val = (y 0).val; omega

theorem blk_6 (c : Dev nD) (t : Fin cfg0.N) (y : S256x128.Idx) : iblk0 V c 6 t y = V c main_arg8 y := by
  obtain ⟨-, -, -, -, -, -, -, -, -, e9, e10, -⟩ := idx_facts t
  show V c main_arg8 (((cfg0.win 6).blk t).view.emb y) = _
  refine congrArg (V c main_arg8) ?_
  funext ax; apply Fin.ext
  match ax with
  | ⟨0, _⟩ => show win0_6.index t (0 : Fin 2) * 256 + 1 * (y 0).val = (y 0).val; omega
  | ⟨1, _⟩ => show win0_6.index t (1 : Fin 2) * 128 + 1 * (y 1).val = (y 1).val; omega

theorem blk_7 (c : Dev nD) (t : Fin cfg0.N) (y : S128.Idx) : iblk0 V c 7 t y = V c main_arg9 y := by
  obtain ⟨-, -, -, -, -, -, -, -, -, -, -, e11, -⟩ := idx_facts t
  show V c main_arg9 (((cfg0.win 7).blk t).view.emb y) = _
  refine congrArg (V c main_arg9) ?_
  funext ax; apply Fin.ext
  match ax with
  | ⟨0, _⟩ => show win0_7.index t (0 : Fin 1) * 128 + 1 * (y 0).val = (y 0).val; omega

theorem blk_8 (c : Dev nD) (t : Fin cfg0.N) (y : S128x128.Idx) : iblk0 V c 8 t y = V c main_arg10 y := by
  obtain ⟨-, -, -, -, -, -, -, -, -, -, -, -, e12, e13, -⟩ := idx_facts t
  show V c main_arg10 (((cfg0.win 8).blk t).view.emb y) = _
  refine congrArg (V c main_arg10) ?_
  funext ax; apply Fin.ext
  match ax with
  | ⟨0, _⟩ => show win0_8.index t (0 : Fin 2) * 128 + 1 * (y 0).val = (y 0).val; omega
  | ⟨1, _⟩ => show win0_8.index t (1 : Fin 2) * 128 + 1 * (y 1).val = (y 1).val; omega

theorem blk_9 (c : Dev nD) (t : Fin cfg0.N) (y : S128.Idx) : iblk0 V c 9 t y = V c main_arg11 y := by
  obtain ⟨-, -, -, -, -, -, -, -, -, -, -, -, -, -, e14, -⟩ := idx_facts t
  show V c main_arg11 (((cfg0.win 9).blk t).view.emb y) = _
  refine congrArg (V c main_arg11) ?_
  funext ax; apply Fin.ext
  match ax with
  | ⟨0, _⟩ => show win0_9.index t (0 : Fin 1) * 128 + 1 * (y 0).val = (y 0).val; omega

/-! ## What a point writes back, the cover, the array -/

/-- WHAT POINT `t` WRITES BACK is block `t` of `G` of the arrays the region finds. -/
theorem flushed_eq (c : Dev nD) (t : Fin cfg0.N) :
    (dat0 V c).flushed 10 t = ((cfg0.win 10).blk t).view.read (Elt Ideal)
      (G (V c main_arg0) (V c main_arg1) (V c main_arg4) (V c main_arg5) (V c main_arg6) (V c main_arg7) (V c main_arg8)
        (V c main_arg9) (V c main_arg10) (V c main_arg11)) := by
  show (cfg0.win 10).cut (grid0.coords t) ((dat0 V c).after 10 t) = _
  rw [after0_10]
  unfold out0_10
  rw [View.canon_unit_zero hz2]
  simp only [View.ld_unit_zero (S := S10000x128) hz2, View.ld_unit_zero (S := S10000x1) hz2, View.ld_unit_zero (S := S1x128) hz2,
    View.ld_unit_zero (S := S128) hz1, View.ld_unit_zero (S := S256) hz1, View.ld_unit_zero (S := S256x128) hz2,
    View.ld_unit_zero (S := S128x128) hz2]
  funext y
  obtain ⟨p, j, rfl⟩ : ∃ (p : Fin 10000) (j : Fin 128), y = ix2 p j := ⟨y 0, y 1, eq_ix2 y⟩
  have hN : grid0.N = 50 := N_0
  have ht : t.val < grid0.N := t.isLt
  obtain ⟨i, hi⟩ : ∃ i : Fin 500000, i.val = t.val * 10000 + p.val := ⟨⟨t.val * 10000 + p.val, by have := p.isLt; omega⟩, rfl⟩
  have hemb : ((cfg0.win 10).blk t).view.emb (ix2 p j) = ix2 i j := by
    have e := (idx_facts t).2.2.2.2.2.2.2.2.2.2.2.2.2.2.2
    funext ax; apply Fin.ext
    match ax with
    | ⟨0, _⟩ => show win0_10.index t (0 : Fin 2) * 10000 + 1 * p.val = i.val; have := e.1; omega
    | ⟨1, _⟩ => show win0_10.index t (1 : Fin 2) * 128 + 1 * j.val = j.val; have := e.2; omega
  show k0_pay1 (F := Ideal) (k0_pay2 (F := Ideal) (iblk0 V c 0 t) (iblk0 V c 1 t) (iblk0 V c 2 t) (iblk0 V c 3 t) (iblk0 V c 4 t) (iblk0 V c 5 t)
      (iblk0 V c 6 t)) (iblk0 V c 7 t) (iblk0 V c 8 t) (iblk0 V c 9 t) (ix2 p j)
    = G (V c main_arg0) (V c main_arg1) (V c main_arg4) (V c main_arg5) (V c main_arg6) (V c main_arg7) (V c main_arg8)
        (V c main_arg9) (V c main_arg10) (V c main_arg11) (((cfg0.win 10).blk t).view.emb (ix2 p j))
  rw [hemb]
  refine (Cert.KernelIdeal.KBody0.pay_apply (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) p j).trans ?_
  show _ = nodeRow (V c main_arg1 (ix2 i (0 : Fin 1))) (fun a => V c main_arg0 (ix2 i a)) (fun a => V c main_arg4 (ix2 (0 : Fin 1) a))
    (fun a => V c main_arg5 (ix1 a)) (fun a => V c main_arg6 (ix1 a)) (fun a => V c main_arg7 (ix1 a)) (fun k a => V c main_arg8 (ix2 k a))
    (fun a => V c main_arg9 (ix1 a)) (fun k a => V c main_arg10 (ix2 k a)) (fun a => V c main_arg11 (ix1 a)) j
  simp only [blk_0 V c t p i hi, blk_1 V c t p i hi, blk_2 V c t, blk_3 V c t, blk_4 V c t, blk_5 V c t, blk_6 V c t, blk_7 V c t,
    blk_8 V c t, blk_9 V c t]

/-- An index of the output array is in point `t`'s block iff each coordinate is in the block's range on its axis. -/
theorem mem_blk (t : Fin cfg0.N) (i : S500000x128.Idx) :
    i ∈ ((cfg0.win 10).blk t).view.set ↔ ∀ a : Fin 2, win0_10.index t a * S10000x128.size a ≤ (i a).val
      ∧ (i a).val < win0_10.index t a * S10000x128.size a + S10000x128.size a := by
  show i ∈ ((View.whole main_v0).slice (win0_10.rect t)).set ↔ _
  rw [View.set_slice_whole, Rect.mem_set_unit]
  exact Iff.rfl

/-- Every index of the output array is in the block of the point its row falls to. -/
theorem cover (i : S500000x128.Idx) :
    ∃ t : Fin cfg0.N, (cfg0.win 10).flush t = true ∧ i ∈ ((cfg0.win 10).blk t).view.set := by
  have hN : grid0.N = 50 := N_0
  have hi0 : (i 0).val < 500000 := (i 0).isLt
  have hi1 : (i 1).val < 128 := (i 1).isLt
  obtain ⟨t, htv⟩ : ∃ t : Fin cfg0.N, t.val = (i 0).val / 10000 :=
    ⟨⟨(i 0).val / 10000, by show (i 0).val / 10000 < grid0.N; omega⟩, rfl⟩
  refine ⟨t, flush0_10 t, ?_⟩
  rw [mem_blk]
  have e := (idx_facts t).2.2.2.2.2.2.2.2.2.2.2.2.2.2.2
  intro a
  match a with
  | ⟨0, _⟩ =>
    show win0_10.index t (0 : Fin 2) * 10000 ≤ (i 0).val ∧ (i 0).val < win0_10.index t (0 : Fin 2) * 10000 + 10000
    have := e.1; omega
  | ⟨1, _⟩ =>
    show win0_10.index t (1 : Fin 2) * 128 ≤ (i 1).val ∧ (i 1).val < win0_10.index t (1 : Fin 2) * 128 + 128
    have := e.2; omega

/-- THE ARRAY after the region: `G` of the arrays the region finds. -/
theorem final (c : Dev nD) : (dat0 V c).arrAt 10 cfg0.N
    = G (V c main_arg0) (V c main_arg1) (V c main_arg4) (V c main_arg5) (V c main_arg6) (V c main_arg7) (V c main_arg8)
        (V c main_arg9) (V c main_arg10) (V c main_arg11) :=
  (dat0 V c).arrAt_eq_of_cover 10 _ (fun t _ => flushed_eq V c t) cover

end Cert.KernelIdeal.KValue0

end
-- ==== Proof.KBody1.lean ====
/-
  The second region's body. One grid point loads a block of 25000 rows of three edge attributes with the whole 3-row
  encoder and its bias, and stores a block of 25000 output rows: each output entry is the three attributes against the
  encoder's three rows at that column, summed left to right, plus the bias.
-/
import proofs.«159303_j62947040690378_2_alg».proof.Proof.Gen.KernelIdeal.Skeleton
import proofs.«159303_j62947040690378_2_alg».proof.Proof.Spec
import proofs.«159303_j62947040690378_2_alg».proof.Proof.LibDenseRows
import proofs.«159303_j62947040690378_2_alg».proof.Proof.LibColumnLayout

noncomputable section

namespace Cert.KernelIdeal.KBody1

open Idealize.ShloMosaic Idealize.ShloMosaic.ValueIdx Idealize.SL.Sem
open Cert.KernelIdeal Cert.KernelIdeal.Facts₀ Cert.KernelIdeal.Facts
open Cert.KernelIdeal.Gen (k1_pay1)
open Cert.Spec Cert.DenseRows Cert.ColumnLayout
open scoped BigOperators

variable [Cert.KernelIdeal.Facts]

/-- Column `o` of the attribute block laid over the 128 columns, times row `o` of the encoder laid over the rows. -/
def colRow (o : Nat) (hs0 : S25000x3.Slices ![0, o] S25000x1) (hs1 : S3x128.Slices ![o, 0] S1x128)
    (v0 : FVec Ideal S25000x3 .f32) (v1 : FVec Ideal S3x128 .f32) : FVec Ideal S25000x128 .f32 :=
  mulf (broadcastTo S25000x128 (extractStridedSlice S25000x1 ![0, o] v0 hs0) broadcasts_S25000x1_S25000x128)
    (broadcastTo S25000x128
      (shapeCast S1x128 (shapeCast S128 (extractStridedSlice S1x128 ![o, 0] v1 hs1) shapeCasts_S1x128_S128) shapeCasts_S128_S1x128)
      broadcasts_S1x128_S25000x128)

/-- The block of output rows. -/
def edgeBlk (v0 : FVec Ideal S25000x3 .f32) (v1 : FVec Ideal S3x128 .f32) (v2 : FVec Ideal S128 .f32) : FVec Ideal S25000x128 .f32 :=
  addf (addf (addf (colRow 0 slices_S25000x3_o0_0_S25000x1 slices_S3x128_o0_0_S1x128 v0 v1)
      (colRow 1 slices_S25000x3_o0_1_S25000x1 slices_S3x128_o1_0_S1x128 v0 v1))
      (colRow 2 slices_S25000x3_o0_2_S25000x1 slices_S3x128_o2_0_S1x128 v0 v1))
    (broadcastTo S25000x128 (shapeCast S1x128 v2 shapeCasts_S128_S1x128) broadcasts_S1x128_S25000x128)

/-- The generated payload is that block. -/
theorem pay_eq (v0 : Vec Ideal S25000x3 .f32) (v1 : Vec Ideal S3x128 .f32) (v2 : Vec Ideal S128 .f32) :
    k1_pay1 (F := Ideal) v0 v1 v2 = edgeBlk v0 v1 v2 := rfl

/-- One product at `(p, j)`: attribute `o` of row `p` times the encoder's entry `(o, j)`. -/
theorem colRow_apply (o : Nat) (hs0 : S25000x3.Slices ![0, o] S25000x1) (hs1 : S3x128.Slices ![o, 0] S1x128)
    (v0 : FVec Ideal S25000x3 .f32) (v1 : FVec Ideal S3x128 .f32) (ko : Fin 3) (hko : ko.val = o) (p : Fin 25000) (j : Fin 128) :
    colRow o hs0 hs1 v0 v1 (ix2 p j) = v0 (ix2 p ko) * v1 (ix2 ko j) := by
  unfold colRow
  rw [mulf_apply, broadcastTo_a1_ab_apply, rowBias_cast_apply, shapeCast_1a_a_apply,
    slice2_axis1_apply o v0 hs0 p (0 : Fin 1) ko (by rw [hko]; rfl),
    slice2_axis0_apply o v1 hs1 (0 : Fin 1) j ko (by rw [hko]; rfl)]

/-- THE BODY AT A ROW AND A COLUMN: what the point stores at `(p, j)` is the edge row of the loaded block's row `p`. -/
theorem pay_apply (v0 : Vec Ideal S25000x3 .f32) (v1 : Vec Ideal S3x128 .f32) (v2 : Vec Ideal S128 .f32) (p : Fin 25000) (j : Fin 128) :
    k1_pay1 (F := Ideal) v0 v1 v2 (ix2 p j)
      = edgeRow (fun k => v0 (ix2 p k)) (fun k a => v1 (ix2 k a)) (fun a => v2 (ix1 a)) j := by
  rw [pay_eq]
  unfold edgeBlk edgeRow
  rw [addf_apply, addf_apply, addf_apply, rowBias_cast_apply,
    colRow_apply 0 _ _ v0 v1 0 rfl, colRow_apply 1 _ _ v0 v1 1 rfl, colRow_apply 2 _ _ v0 v1 2 rfl]

end Cert.KernelIdeal.KBody1

end
-- ==== Proof.KValue1.lean ====
/-
  The second region's output array as ONE function of the arrays the region finds: grid point `t` reads rows
  `25000·t … 25000·t + 24999` of the edge attributes and the whole encoder and bias, and writes back the same rows of the
  output, each the edge row of its attributes. The forty points' blocks tile the 1000000 rows.
-/
import proofs.«159303_j62947040690378_2_alg».proof.Proof.Gen.KernelIdeal.Frame
import proofs.«159303_j62947040690378_2_alg».proof.Proof.KBody1
import Idealize.ShloMosaic.Lib.Pipeline.Value

set_option maxRecDepth 16384

noncomputable section

namespace Cert.KernelIdeal.KValue1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Spec

variable (V : (c : Dev nD) → (b : Ref sig .tc) → Buf (Elt Ideal) ((c : Thread nD τ).loc b))

/-- The output array as a function of the argument arrays: row `i`, column `j` is the edge row of row `i`. -/
def G (a2 : FVec Ideal S1000000x3 .f32) (a12 : FVec Ideal S3x128 .f32) (a13 : FVec Ideal S128 .f32) : FVec Ideal S1000000x128 .f32 :=
  fun i => edgeRow (fun k => a2 (ix2 (i 0) k)) (fun k a => a12 (ix2 k a)) (fun a => a13 (ix1 a)) (i 1)

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row `p` of the attribute block at point `t` is row `25000·t + p` of the array. -/
theorem blk_0 (c : Dev nD) (t : Fin cfg1.N) (p : Fin 25000) (i : Fin 1000000) (hi : i.val = t.val * 25000 + p.val) (k : Fin 3) :
    iblk1 V c 0 t (ix2 p k) = V c main_arg2 (ix2 i k) := by
  obtain ⟨e0, e1, -⟩ := idx_facts t
  show V c main_arg2 (((cfg1.win 0).blk t).view.emb (ix2 p k)) = _
  refine congrArg (V c main_arg2) ?_
  funext ax; apply Fin.ext
  match ax with
  | ⟨0, _⟩ => show win1_0.index t (0 : Fin 2) * 25000 + 1 * p.val = i.val; omega
  | ⟨1, _⟩ => show win1_0.index t (1 : Fin 2) * 3 + 1 * k.val = k.val; omega

/-- The encoder window's block is the whole encoder, at every point. -/
theorem blk_1 (c : Dev nD) (t : Fin cfg1.N) (y : S3x128.Idx) : iblk1 V c 1 t y = V c main_arg12 y := by
  obtain ⟨-, -, e2, e3, -⟩ := idx_facts t
  show V c main_arg12 (((cfg1.win 1).blk t).view.emb y) = _
  refine congrArg (V c main_arg12) ?_
  funext ax; apply Fin.ext
  match ax with
  | ⟨0, _⟩ => show win1_1.index t (0 : Fin 2) * 3 + 1 * (y 0).val = (y 0).val; omega
  | ⟨1, _⟩ => show win1_1.index t (1 : Fin 2) * 128 + 1 * (y 1).val = (y 1).val; omega

/-- The bias window's block is the whole bias, at every point. -/
theorem blk_2 (c : Dev nD) (t : Fin cfg1.N) (y : S128.Idx) : iblk1 V c 2 t y = V c main_arg13 y := by
  obtain ⟨-, -, -, -, e4, -⟩ := idx_facts t
  show V c main_arg13 (((cfg1.win 2).blk t).view.emb y) = _
  refine congrArg (V c main_arg13) ?_
  funext ax; apply Fin.ext
  match ax with
  | ⟨0, _⟩ => show win1_2.index t (0 : Fin 1) * 128 + 1 * (y 0).val = (y 0).val; omega

/-- WHAT POINT `t` WRITES BACK is block `t` of `G` of the arrays the region finds. -/
theorem flushed_eq (c : Dev nD) (t : Fin cfg1.N) :
    (dat1 V c).flushed 3 t = ((cfg1.win 3).blk t).view.read (Elt Ideal) (G (V c main_arg2) (V c main_arg12) (V c main_arg13)) := by
  show (cfg1.win 3).cut (grid1.coords t) ((dat1 V c).after 3 t) = _
  rw [after1_3]
  unfold out1_3
  rw [View.canon_unit_zero hz2]
  simp only [View.ld_unit_zero (S := S25000x3) hz2, View.ld_unit_zero (S := S3x128) hz2, View.ld_unit_zero (S := S128) hz1]
  funext y
  obtain ⟨p, j, rfl⟩ : ∃ (p : Fin 25000) (j : Fin 128), y = ix2 p j := ⟨y 0, y 1, eq_ix2 y⟩
  have hN : grid1.N = 40 := N_1
  have ht : t.val < grid1.N := t.isLt
  obtain ⟨i, hi⟩ : ∃ i : Fin 1000000, i.val = t.val * 25000 + p.val := ⟨⟨t.val * 25000 + p.val, by have := p.isLt; omega⟩, rfl⟩
  have hemb : ((cfg1.win 3).blk t).view.emb (ix2 p j) = ix2 i j := by
    have e := (idx_facts t).2.2.2.2.2
    funext ax; apply Fin.ext
    match ax with
    | ⟨0, _⟩ => show win1_3.index t (0 : Fin 2) * 25000 + 1 * p.val = i.val; have := e.1; omega
    | ⟨1, _⟩ => show win1_3.index t (1 : Fin 2) * 128 + 1 * j.val = j.val; have := e.2; omega
  show k1_pay1 (F := Ideal) (iblk1 V c 0 t) (iblk1 V c 1 t) (iblk1 V c 2 t) (ix2 p j)
    = G (V c main_arg2) (V c main_arg12) (V c main_arg13) (((cfg1.win 3).blk t).view.emb (ix2 p j))
  rw [hemb]
  refine (Cert.KernelIdeal.KBody1.pay_apply (iblk1 V c 0 t) (iblk1 V c 1 t) (iblk1 V c 2 t) p j).trans ?_
  show _ = edgeRow (fun k => V c main_arg2 (ix2 i k)) (fun k a => V c main_arg12 (ix2 k a)) (fun a => V c main_arg13 (ix1 a)) j
  simp only [blk_0 V c t p i hi, blk_1 V c t, blk_2 V c t]

/-- An index of the output array is in point `t`'s block iff each coordinate is in the block's range on its axis. -/
theorem mem_blk (t : Fin cfg1.N) (i : S1000000x128.Idx) :
    i ∈ ((cfg1.win 3).blk t).view.set ↔ ∀ a : Fin 2, win1_3.index t a * S25000x128.size a ≤ (i a).val
      ∧ (i a).val < win1_3.index t a * S25000x128.size a + S25000x128.size a := by
  show i ∈ ((View.whole main_v12).slice (win1_3.rect t)).set ↔ _
  rw [View.set_slice_whole, Rect.mem_set_unit]
  exact Iff.rfl

/-- Every index of the output array is in the block of the point its row falls to. -/
theorem cover (i : S1000000x128.Idx) :
    ∃ t : Fin cfg1.N, (cfg1.win 3).flush t = true ∧ i ∈ ((cfg1.win 3).blk t).view.set := by
  have hN : grid1.N = 40 := N_1
  have hi0 : (i 0).val < 1000000 := (i 0).isLt
  have hi1 : (i 1).val < 128 := (i 1).isLt
  obtain ⟨t, htv⟩ : ∃ t : Fin cfg1.N, t.val = (i 0).val / 25000 :=
    ⟨⟨(i 0).val / 25000, by show (i 0).val / 25000 < grid1.N; omega⟩, rfl⟩
  refine ⟨t, flush1_3 t, ?_⟩
  rw [mem_blk]
  have e := (idx_facts t).2.2.2.2.2
  intro a
  match a with
  | ⟨0, _⟩ =>
    show win1_3.index t (0 : Fin 2) * 25000 ≤ (i 0).val ∧ (i 0).val < win1_3.index t (0 : Fin 2) * 25000 + 25000
    have := e.1; omega
  | ⟨1, _⟩ =>
    show win1_3.index t (1 : Fin 2) * 128 ≤ (i 1).val ∧ (i 1).val < win1_3.index t (1 : Fin 2) * 128 + 128
    have := e.2; omega

/-- THE ARRAY after the region: `G` of the arrays the region finds. -/
theorem final (c : Dev nD) : (dat1 V c).arrAt 3 cfg1.N = G (V c main_arg2) (V c main_arg12) (V c main_arg13) :=
  (dat1 V c).arrAt_eq_of_cover 3 _ (fun t _ => flushed_eq V c t) cover

end Cert.KernelIdeal.KValue1

end
-- ==== Proof.LibSegmentSum.lean ====
/-
  The host's accumulating scatter, read at an index given by coordinates, at the ideal values, for the dimension
  numbers of a SEGMENT SUM: the scatter indices are a column of N row numbers (shape [N, 1], the index vector along
  the second axis), update row i is added into operand row idx[i] (the scatter axis goes to operand axis 0, which is
  the one inserted window axis), and the update's remaining axis, if any, runs along the operand's columns. An element
  of the result is then the operand's element plus the sum of the update elements in the same column whose row number
  is that element's row: a sum over a filter of Fin N. A row number read signed that is negative or not below the
  operand's row count lands outside and adds nothing, which the filter says by itself, the wanted row being a row.
-/
import Idealize.ShloMosaic.Lib.ValueIdx
import Idealize.ShloMosaic.PureOps.Ideal.Laws

noncomputable section

namespace Cert.SegmentSum

open Idealize.ShloMosaic Idealize.ShloMosaic.ValueIdx
open scoped BigOperators

/-! ## Updates of rows: operand [S, C], updates [N, C] -/

/-- Update element (i, b) lands on operand element (s, c) exactly when row number i, read signed, is s and b = c:
    the start is (row number, 0) and the window coordinate is (0, b), so the landing place is (row number, b), inside
    the operand exactly when the row number is one of its rows. -/
theorem resultIdx?_rows_eq_some_iff {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (idx : IVec ⟨2, ![N, 1]⟩ w) (i : Fin N) (b : Fin C) (s : Fin S) (c : Fin C) :
    d.resultIdx? (ix2 i b) idx = some (ix2 s c) ↔ (idx (ix2 i (0 : Fin 1))).toInt = (s.val : Int) ∧ b = c := by
  unfold ScatterDims.resultIdx?
  constructor
  · intro h
    split_ifs at h with hr
    have h' := Option.some.inj h
    have h0 : (d.start (ix2 i b) idx (0 : Fin 2) + (d.window (ix2 i b) (0 : Fin 2) : Int)).toNat = s.val :=
      congrArg (fun f : (⟨2, ![S, C]⟩ : Shape).Idx => (f (0 : Fin 2)).val) h'
    have h1 : (d.start (ix2 i b) idx (1 : Fin 2) + (d.window (ix2 i b) (1 : Fin 2) : Int)).toNat = c.val :=
      congrArg (fun f : (⟨2, ![S, C]⟩ : Shape).Idx => (f (1 : Fin 2)).val) h'
    have hr0 := (hr (0 : Fin 2)).1
    rw [hs0, hw0] at h0 hr0
    rw [hs1, hw1] at h1
    refine ⟨by omega, Fin.ext (by omega)⟩
  · rintro ⟨hrow, rfl⟩
    have hr : ∀ a : Fin 2, 0 ≤ d.start (ix2 i b) idx a + (d.window (ix2 i b) a : Int) ∧
        d.start (ix2 i b) idx a + (d.window (ix2 i b) a : Int) < ((⟨2, ![S, C]⟩ : Shape).size a : Int) := by
      intro a
      match a with
      | ⟨0, _⟩ =>
        have e1 := hs0 i b idx
        have e2 := hw0 i b
        have hS : (s.val : Int) < (S : Int) := by exact_mod_cast s.isLt
        show 0 ≤ d.start (ix2 i b) idx (0 : Fin 2) + (d.window (ix2 i b) (0 : Fin 2) : Int) ∧
          d.start (ix2 i b) idx (0 : Fin 2) + (d.window (ix2 i b) (0 : Fin 2) : Int) < (S : Int)
        rw [e1, e2]; omega
      | ⟨1, _⟩ =>
        have e1 := hs1 i b idx
        have e2 := hw1 i b
        have hC : (b.val : Int) < (C : Int) := by exact_mod_cast b.isLt
        show 0 ≤ d.start (ix2 i b) idx (1 : Fin 2) + (d.window (ix2 i b) (1 : Fin 2) : Int) ∧
          d.start (ix2 i b) idx (1 : Fin 2) + (d.window (ix2 i b) (1 : Fin 2) : Int) < (C : Int)
        rw [e1, e2]; omega
    rw [dif_pos hr]
    congr 1
    funext a
    apply Fin.ext
    match a with
    | ⟨0, _⟩ =>
      show (d.start (ix2 i b) idx (0 : Fin 2) + (d.window (ix2 i b) (0 : Fin 2) : Int)).toNat = s.val
      rw [hs0, hw0]; omega
    | ⟨1, _⟩ =>
      show (d.start (ix2 i b) idx (1 : Fin 2) + (d.window (ix2 i b) (1 : Fin 2) : Int)).toNat = b.val
      rw [hs1, hw1]; omega

/-- The accumulating scatter of N update rows into an operand of S rows, at row s and column c: the operand's element
    plus the sum, over the update rows i whose row number (read signed) is s, of the update at (i, c). The hypotheses say
    what the dimension numbers mean: the start is (row number, 0), the window coordinate is (0, update column). The sum
    over the update indices that land on (s, c) is split by coordinates; the column must be c and the row's number s. -/
theorem scatterAdd_rows_apply {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (x : FVec Ideal ⟨2, ![S, C]⟩ .f32) (idx : IVec ⟨2, ![N, 1]⟩ w) (upd : FVec Ideal ⟨2, ![N, C]⟩ .f32)
    (s : Fin S) (c : Fin C) :
    Host.scatterAdd d x idx upd (ix2 s c) = x (ix2 s c) +
      ∑ i ∈ Finset.univ.filter (fun i : Fin N => (idx (ix2 i (0 : Fin 1))).toInt = (s.val : Int)), upd (ix2 i c) := by
  show x (ix2 s c) + ∑ j ∈ Finset.univ.filter (fun j => d.resultIdx? j idx = some (ix2 s c)), upd j = _
  congr 1
  rw [Finset.sum_filter, Finset.sum_filter, sum_idx2]
  refine Finset.sum_congr rfl fun i _ => ?_
  simp only [resultIdx?_rows_eq_some_iff d hs0 hs1 hw0 hw1]
  by_cases h : (idx (ix2 i (0 : Fin 1))).toInt = (s.val : Int)
  · simp only [h, true_and, if_true]
    rw [Finset.sum_ite_eq' Finset.univ c (fun b => upd (ix2 i b))]
    simp
  · simp only [h, false_and, if_false, Finset.sum_const_zero]

/-! ## Updates of single elements: operand [S], updates [N] -/

/-- A rank-1 index set is its one coordinate range … -/
def idxEquiv1 {n : ℕ} : (⟨1, ![n]⟩ : Shape).Idx ≃ Fin n where
  toFun j := j 0
  invFun i := ix1 i
  left_inv j := (eq_ix1 j).symm
  right_inv _ := rfl

/-- … so a sum over it is the sum over the coordinate. -/
theorem sum_idx1 {M : Type*} [AddCommMonoid M] {n : ℕ} (f : (⟨1, ![n]⟩ : Shape).Idx → M) :
    ∑ j, f j = ∑ i : Fin n, f (ix1 i) := by
  rw [← Equiv.sum_comp (idxEquiv1 (n := n)).symm f]
  rfl

/-- Update element i lands on operand element s exactly when row number i, read signed, is s: the start is the row
    number and there is no window, so the landing place is the row number, inside the operand exactly when it is one of
    its elements. -/
theorem resultIdx?_vec_eq_some_iff {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (idx : IVec ⟨2, ![N, 1]⟩ w) (i : Fin N) (s : Fin S) :
    d.resultIdx? (ix1 i) idx = some (ix1 s) ↔ (idx (ix2 i (0 : Fin 1))).toInt = (s.val : Int) := by
  unfold ScatterDims.resultIdx?
  constructor
  · intro h
    split_ifs at h with hr
    have h' := Option.some.inj h
    have h0 : (d.start (ix1 i) idx (0 : Fin 1) + (d.window (ix1 i) (0 : Fin 1) : Int)).toNat = s.val :=
      congrArg (fun f : (⟨1, ![S]⟩ : Shape).Idx => (f (0 : Fin 1)).val) h'
    have hr0 := (hr (0 : Fin 1)).1
    rw [hs0, hw0] at h0 hr0
    omega
  · intro hrow
    have hr : ∀ a : Fin 1, 0 ≤ d.start (ix1 i) idx a + (d.window (ix1 i) a : Int) ∧
        d.start (ix1 i) idx a + (d.window (ix1 i) a : Int) < ((⟨1, ![S]⟩ : Shape).size a : Int) := by
      intro a
      match a with
      | ⟨0, _⟩ =>
        have e1 := hs0 i idx
        have e2 := hw0 i
        have hS : (s.val : Int) < (S : Int) := by exact_mod_cast s.isLt
        show 0 ≤ d.start (ix1 i) idx (0 : Fin 1) + (d.window (ix1 i) (0 : Fin 1) : Int) ∧
          d.start (ix1 i) idx (0 : Fin 1) + (d.window (ix1 i) (0 : Fin 1) : Int) < (S : Int)
        rw [e1, e2]; omega
    rw [dif_pos hr]
    congr 1
    funext a
    apply Fin.ext
    match a with
    | ⟨0, _⟩ =>
      show (d.start (ix1 i) idx (0 : Fin 1) + (d.window (ix1 i) (0 : Fin 1) : Int)).toNat = s.val
      rw [hs0, hw0]; omega

/-- The accumulating scatter of N update elements into an operand of S elements, at element s: the operand's element
    plus the sum, over the update elements i whose row number (read signed) is s, of the update at i. The hypotheses say
    what the dimension numbers mean: the start is the row number, and there is no window. -/
theorem scatterAdd_vec_apply {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (x : FVec Ideal ⟨1, ![S]⟩ .f32) (idx : IVec ⟨2, ![N, 1]⟩ w) (upd : FVec Ideal ⟨1, ![N]⟩ .f32) (s : Fin S) :
    Host.scatterAdd d x idx upd (ix1 s) = x (ix1 s) +
      ∑ i ∈ Finset.univ.filter (fun i : Fin N => (idx (ix2 i (0 : Fin 1))).toInt = (s.val : Int)), upd (ix1 i) := by
  show x (ix1 s) + ∑ j ∈ Finset.univ.filter (fun j => d.resultIdx? j idx = some (ix1 s)), upd j = _
  congr 1
  rw [Finset.sum_filter, Finset.sum_filter, sum_idx1]
  refine Finset.sum_congr rfl fun i _ => ?_
  simp only [resultIdx?_vec_eq_some_iff d hs0 hw0]

end Cert.SegmentSum
-- ==== Proof.SegmentDims.lean ====
/-
  The three accumulating scatters of the two printed programs are segment sums: each one's dimension numbers (update
  window axis 1 or none, inserted window axis 0, scatter axis 0 to operand axis 0, index vector on axis 1) give the start
  (row number, 0) and the window coordinate (0, update column), so an element of the result is the operand's element plus
  the sum of the update elements of its column whose row number is its row.
-/
import proofs.«159303_j62947040690378_2_alg».proof.Proof.LibSegmentSum
import proofs.«159303_j62947040690378_2_alg».proof.KernelIdeal
import proofs.«159303_j62947040690378_2_alg».proof.ReferenceIdeal

noncomputable section

namespace Cert.SegmentDims

open Idealize.ShloMosaic Idealize.ShloMosaic.ValueIdx
open scoped BigOperators

section Kernel
variable [Cert.KernelIdeal.Facts]

/-- The kernel's scatter of 500000 update rows of 129 columns into 125000 rows: the start on the row axis is the row number of the update's row, read signed. -/
theorem kernel_start0 (i : Fin 500000) (b : Fin 129) (idx : IVec ⟨2, ![500000, 1]⟩ 32) :
    Cert.KernelIdeal.scatter_S125000x129_S500000x1_S500000x129_1_0_0_1.start (ix2 i b) idx (0 : Fin 2) = (idx (ix2 i (0 : Fin 1))).toInt := by
  unfold ScatterDims.start
  have hm : (0 : Fin 2) ∈ Cert.KernelIdeal.scatter_S125000x129_S500000x1_S500000x129_1_0_0_1.scatterDimsToOperandDims := List.mem_singleton.2 rfl
  rw [dif_pos hm]
  congr 2
  funext a
  apply Fin.ext
  match a with
  | ⟨0, _⟩ => rfl
  | ⟨1, _⟩ => rfl

/-- The start on the column axis, which no scatter axis goes to, is 0. -/
theorem kernel_start1 (i : Fin 500000) (b : Fin 129) (idx : IVec ⟨2, ![500000, 1]⟩ 32) :
    Cert.KernelIdeal.scatter_S125000x129_S500000x1_S500000x129_1_0_0_1.start (ix2 i b) idx (1 : Fin 2) = 0 := by
  unfold ScatterDims.start
  have hn : (1 : Fin 2) ∉ Cert.KernelIdeal.scatter_S125000x129_S500000x1_S500000x129_1_0_0_1.scatterDimsToOperandDims := by
    show (1 : Fin 2) ∉ [(0 : Fin 2)]
    decide
  rw [dif_neg hn]

/-- The window coordinate on the row axis, an inserted one, is 0. -/
theorem kernel_window0 (i : Fin 500000) (b : Fin 129) :
    Cert.KernelIdeal.scatter_S125000x129_S500000x1_S500000x129_1_0_0_1.window (ix2 i b) (0 : Fin 2) = 0 := by
  unfold ScatterDims.window
  have hn : (0 : Fin 2) ∉ Cert.KernelIdeal.scatter_S125000x129_S500000x1_S500000x129_1_0_0_1.sKept := by
    show (0 : Fin 2) ∉ [(1 : Fin 2)]
    decide
  rw [dif_neg hn]

/-- The window coordinate on the column axis is the update's column. -/
theorem kernel_window1 (i : Fin 500000) (b : Fin 129) :
    Cert.KernelIdeal.scatter_S125000x129_S500000x1_S500000x129_1_0_0_1.window (ix2 i b) (1 : Fin 2) = b.val := by
  unfold ScatterDims.window
  have hm : (1 : Fin 2) ∈ Cert.KernelIdeal.scatter_S125000x129_S500000x1_S500000x129_1_0_0_1.sKept := by
    show (1 : Fin 2) ∈ [(1 : Fin 2)]
    decide
  rw [dif_pos hm]
  rfl

/-- The kernel's scatter at row s and column c: the operand's element plus the sum, over the update rows whose row number
    is s, of the update at that row and column c. -/
theorem kernel_scatter_apply (x : FVec Ideal ⟨2, ![125000, 129]⟩ .f32) (idx : IVec ⟨2, ![500000, 1]⟩ 32)
    (upd : FVec Ideal ⟨2, ![500000, 129]⟩ .f32) (s : Fin 125000) (c : Fin 129) :
    Host.scatterAdd (F := Ideal) Cert.KernelIdeal.scatter_S125000x129_S500000x1_S500000x129_1_0_0_1 x idx upd (ix2 s c)
      = x (ix2 s c) + ∑ i ∈ Finset.univ.filter (fun i : Fin 500000 => (idx (ix2 i (0 : Fin 1))).toInt = (s.val : Int)),
          upd (ix2 i c) :=
  Cert.SegmentSum.scatterAdd_rows_apply _ kernel_start0 kernel_start1 kernel_window0 kernel_window1 x idx upd s c

end Kernel

section Reference
variable [Cert.ReferenceIdeal.Facts]

/-- The reference's scatter of 500000 update rows of 128 columns into 125000 rows: the start on the row axis is the row number of the update's row, read signed. -/
theorem ref_rows_start0 (i : Fin 500000) (b : Fin 128) (idx : IVec ⟨2, ![500000, 1]⟩ 32) :
    Cert.ReferenceIdeal.scatter_S125000x128_S500000x1_S500000x128_1_0_0_1.start (ix2 i b) idx (0 : Fin 2) = (idx (ix2 i (0 : Fin 1))).toInt := by
  unfold ScatterDims.start
  have hm : (0 : Fin 2) ∈ Cert.ReferenceIdeal.scatter_S125000x128_S500000x1_S500000x128_1_0_0_1.scatterDimsToOperandDims := List.mem_singleton.2 rfl
  rw [dif_pos hm]
  congr 2
  funext a
  apply Fin.ext
  match a with
  | ⟨0, _⟩ => rfl
  | ⟨1, _⟩ => rfl

/-- The start on the column axis, which no scatter axis goes to, is 0. -/
theorem ref_rows_start1 (i : Fin 500000) (b : Fin 128) (idx : IVec ⟨2, ![500000, 1]⟩ 32) :
    Cert.ReferenceIdeal.scatter_S125000x128_S500000x1_S500000x128_1_0_0_1.start (ix2 i b) idx (1 : Fin 2) = 0 := by
  unfold ScatterDims.start
  have hn : (1 : Fin 2) ∉ Cert.ReferenceIdeal.scatter_S125000x128_S500000x1_S500000x128_1_0_0_1.scatterDimsToOperandDims := by
    show (1 : Fin 2) ∉ [(0 : Fin 2)]
    decide
  rw [dif_neg hn]

/-- The window coordinate on the row axis, an inserted one, is 0. -/
theorem ref_rows_window0 (i : Fin 500000) (b : Fin 128) :
    Cert.ReferenceIdeal.scatter_S125000x128_S500000x1_S500000x128_1_0_0_1.window (ix2 i b) (0 : Fin 2) = 0 := by
  unfold ScatterDims.window
  have hn : (0 : Fin 2) ∉ Cert.ReferenceIdeal.scatter_S125000x128_S500000x1_S500000x128_1_0_0_1.sKept := by
    show (0 : Fin 2) ∉ [(1 : Fin 2)]
    decide
  rw [dif_neg hn]

/-- The window coordinate on the column axis is the update's column. -/
theorem ref_rows_window1 (i : Fin 500000) (b : Fin 128) :
    Cert.ReferenceIdeal.scatter_S125000x128_S500000x1_S500000x128_1_0_0_1.window (ix2 i b) (1 : Fin 2) = b.val := by
  unfold ScatterDims.window
  have hm : (1 : Fin 2) ∈ Cert.ReferenceIdeal.scatter_S125000x128_S500000x1_S500000x128_1_0_0_1.sKept := by
    show (1 : Fin 2) ∈ [(1 : Fin 2)]
    decide
  rw [dif_pos hm]
  rfl

/-- The reference's scatter of rows at row s and column c: the operand's element plus the sum, over the update rows whose
    row number is s, of the update at that row and column c. -/
theorem ref_scatter_rows_apply (x : FVec Ideal ⟨2, ![125000, 128]⟩ .f32) (idx : IVec ⟨2, ![500000, 1]⟩ 32)
    (upd : FVec Ideal ⟨2, ![500000, 128]⟩ .f32) (s : Fin 125000) (c : Fin 128) :
    Host.scatterAdd (F := Ideal) Cert.ReferenceIdeal.scatter_S125000x128_S500000x1_S500000x128_1_0_0_1 x idx upd (ix2 s c)
      = x (ix2 s c) + ∑ i ∈ Finset.univ.filter (fun i : Fin 500000 => (idx (ix2 i (0 : Fin 1))).toInt = (s.val : Int)),
          upd (ix2 i c) :=
  Cert.SegmentSum.scatterAdd_rows_apply _ ref_rows_start0 ref_rows_start1 ref_rows_window0 ref_rows_window1 x idx upd s c

/-- The reference's scatter of 500000 single update elements into 125000 elements: the start on the one axis is the row
    number of the update element, read signed. -/
theorem ref_counts_start0 (i : Fin 500000) (idx : IVec ⟨2, ![500000, 1]⟩ 32) :
    Cert.ReferenceIdeal.scatter_S125000_S500000x1_S500000_n_0_0_1.start (ix1 i) idx (0 : Fin 1) = (idx (ix2 i (0 : Fin 1))).toInt := by
  unfold ScatterDims.start
  have hm : (0 : Fin 1) ∈ Cert.ReferenceIdeal.scatter_S125000_S500000x1_S500000_n_0_0_1.scatterDimsToOperandDims := List.mem_singleton.2 rfl
  rw [dif_pos hm]
  congr 2
  funext a
  apply Fin.ext
  match a with
  | ⟨0, _⟩ => rfl
  | ⟨1, _⟩ => rfl

/-- The window coordinate on the one axis, an inserted one, is 0. -/
theorem ref_counts_window0 (i : Fin 500000) :
    Cert.ReferenceIdeal.scatter_S125000_S500000x1_S500000_n_0_0_1.window (ix1 i) (0 : Fin 1) = 0 := by
  unfold ScatterDims.window
  have hn : (0 : Fin 1) ∉ Cert.ReferenceIdeal.scatter_S125000_S500000x1_S500000_n_0_0_1.sKept := by
    show (0 : Fin 1) ∉ ([] : List (Fin 1))
    decide
  rw [dif_neg hn]

/-- The reference's scatter of single elements at element s: the operand's element plus the sum, over the update elements
    whose row number is s, of the update. -/
theorem ref_scatter_counts_apply (x : FVec Ideal ⟨1, ![125000]⟩ .f32) (idx : IVec ⟨2, ![500000, 1]⟩ 32)
    (upd : FVec Ideal ⟨1, ![500000]⟩ .f32) (s : Fin 125000) :
    Host.scatterAdd (F := Ideal) Cert.ReferenceIdeal.scatter_S125000_S500000x1_S500000_n_0_0_1 x idx upd (ix1 s)
      = x (ix1 s) + ∑ i ∈ Finset.univ.filter (fun i : Fin 500000 => (idx (ix2 i (0 : Fin 1))).toInt = (s.val : Int)),
          upd (ix1 i) :=
  Cert.SegmentSum.scatterAdd_vec_apply _ ref_counts_start0 ref_counts_window0 x idx upd s

end Reference

end Cert.SegmentDims
-- ==== Proof.KTail.lean ====
/-
  The host operations between the two regions, as one function of the first region's output and the segment indices: a
  column of ones is appended to the 128 output columns, the 129-column rows are accumulated into the rows their index
  names (from zero), the first 128 columns of the result are the segment sums and the last column the segment counts,
  and the sums are divided by the counts or one, whichever is greater. Read at a segment and a column this is the segment
  mean.
-/
import proofs.«159303_j62947040690378_2_alg».proof.KernelIdeal
import proofs.«159303_j62947040690378_2_alg».proof.Proof.Spec
import proofs.«159303_j62947040690378_2_alg».proof.Proof.LibDenseRows
import proofs.«159303_j62947040690378_2_alg».proof.Proof.SegmentDims

noncomputable section

namespace Cert.KernelIdeal.KTail

open Idealize.ShloMosaic Idealize.ShloMosaic.ValueIdx Idealize.SL.Sem
open Cert.KernelIdeal Cert.KernelIdeal.Facts₀ Cert.KernelIdeal.Facts
open Cert.Spec (word segMean)
open Cert.DenseRows
open scoped BigOperators

variable [Cert.KernelIdeal.Facts]

/-- A scalar word laid over any shape reads that word everywhere. -/
theorem splat_apply {T : Shape} (h : S_.BroadcastsInDim T ![]) (b : BitVec 32) (j : T.Idx) :
    broadcastInDim T ![] h (constant (F := Ideal) S_ .f32 b) j = word b := by
  rw [broadcastInDim_scalar_apply]; rfl

/-- The rows with a column of ones appended. -/
def aug (h : FVec Ideal S500000x128 .f32) : FVec Ideal S500000x129 .f32 :=
  concatenate S500000x129 1
    [⟨S500000x128, h⟩, ⟨S500000x1, broadcastInDim S500000x1 ![] bcast_S_S500000x1 (constant (F := Ideal) S_ .f32 0x3F800000#32)⟩]
    concatenates_S500000x128_S500000x1_S500000x129_d1

/-- The augmented rows accumulated into the rows their index names, from zero. -/
def seg (h : FVec Ideal S500000x128 .f32) (a3 : IVec S500000 32) : FVec Ideal S125000x129 .f32 :=
  Host.scatterAdd (F := Ideal) scatter_S125000x129_S500000x1_S500000x129_1_0_0_1
    (broadcastInDim S125000x129 ![] bcast_S_S125000x129 (constant (F := Ideal) S_ .f32 0x00000000#32))
    (broadcastInDim S500000x1 ![0] bcast_S500000_S500000x1_0 a3) (aug h)

/-- The segment sums over the segment counts or one. -/
def tail (h : FVec Ideal S500000x128 .f32) (a3 : IVec S500000 32) : FVec Ideal S125000x128 .f32 :=
  Host.divf (F := Ideal) (extractStridedSlice S125000x128 ![0, 0] (seg h a3) slices_S125000x129_S125000x128_0_0)
    (broadcastInDim S125000x128 ![0, 1] bcast_S125000x1_S125000x128_0_1
      (maximumf (F := Ideal) (extractStridedSlice S125000x1 ![0, 128] (seg h a3) slices_S125000x129_S125000x1_0_128)
        (broadcastInDim S125000x1 ![] bcast_S_S125000x1 (constant (F := Ideal) S_ .f32 0x3F800000#32))))

/-- Left of column 128 an augmented row reads the row itself. -/
theorem aug_apply_lt (h : FVec Ideal S500000x128 .f32) (i : Fin 500000) (c : Fin 129) (hc : c.val < 128) :
    aug h (ix2 i c) = h (ix2 i ⟨c.val, hc⟩) :=
  concat_cols_left _ _ concatenates_S500000x128_S500000x1_S500000x129_d1 i c hc

/-- Column 128 of an augmented row is the word one. -/
theorem aug_apply_last (h : FVec Ideal S500000x128 .f32) (i : Fin 500000) (c : Fin 129) (hc : c.val = 128) :
    aug h (ix2 i c) = word 0x3F800000#32 :=
  (concat_cols_right _ _ concatenates_S500000x128_S500000x1_S500000x129_d1 i c (by omega) (by omega)).trans (splat_apply _ _ _)

/-- THE TAIL AT A SEGMENT AND A COLUMN: the segment mean of the rows. -/
theorem tail_apply (h : FVec Ideal S500000x128 .f32) (a3 : IVec S500000 32) (s : Fin 125000) (j : Fin 128) :
    tail h a3 (ix2 s j) = segMean (fun i : Fin 500000 => (a3 (ix1 i)).toInt) (fun i f => h (ix2 i f)) s.val j := by
  have hj : j.val < 129 := by have := j.isLt; omega
  unfold tail segMean
  rw [hostDivf_apply, slice2_axis1_apply 0 (seg h a3) slices_S125000x129_S125000x128_0_0 s j ⟨j.val, hj⟩ (by simp),
    broadcastInDim_a1_ab_apply, maximumf_apply,
    slice2_axis1_apply 128 (seg h a3) slices_S125000x129_S125000x1_0_128 s (0 : Fin 1) ⟨128, by omega⟩ rfl, splat_apply]
  unfold seg
  rw [Cert.SegmentDims.kernel_scatter_apply, Cert.SegmentDims.kernel_scatter_apply, splat_apply, splat_apply]
  have e1 : ∀ i : Fin 500000, broadcastInDim S500000x1 ![0] bcast_S500000_S500000x1_0 a3 (ix2 i (0 : Fin 1)) = a3 (ix1 i) :=
    fun i => broadcastInDim_a_a1_apply a3 _ i 0
  have e2 : ∀ i : Fin 500000, aug h (ix2 i (⟨j.val, hj⟩ : Fin 129)) = h (ix2 i j) := fun i => aug_apply_lt h i ⟨j.val, hj⟩ j.isLt
  have e3 : ∀ i : Fin 500000, aug h (ix2 i (⟨128, by omega⟩ : Fin 129)) = word 0x3F800000#32 := fun i => aug_apply_last h i _ rfl
  simp only [e1, e2, e3]

end Cert.KernelIdeal.KTail

end
-- ==== Proof.KResult.lean ====
/-
  The idealized kernel program's two results at the last segment boundary, in closed form. The second result is the second
  region's output array: the edge rows of the launch arguments (the region's input arrays are still the launch arguments
  when it is entered). The first result is written by the host stretch and untouched by the second region: the tail of host
  operations applied to the first region's output array, which is the node rows of the launch arguments, and to the
  segment indices as launched.
-/
import proofs.«159303_j62947040690378_2_alg».proof.Proof.Gen.KernelIdeal.Frame
import proofs.«159303_j62947040690378_2_alg».proof.Proof.KValue0
import proofs.«159303_j62947040690378_2_alg».proof.Proof.KValue1
import proofs.«159303_j62947040690378_2_alg».proof.Proof.KTail
import Idealize.ShloMosaic.Lib.StableHlo.Run

set_option maxRecDepth 16384

noncomputable section

namespace Cert.KernelIdeal.KResult

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The second region finds the edge attributes as launched. -/
theorem V2_arg2 (c : Dev nD) : V2 m ρ c main_arg2 = m ((c : Thread nD τ).loc main_arg2) :=
  ((W3_arr m ρ c 0).trans (((dat1 (V2 m ρ) c).arrAt_in 0 rfl _).trans (A_eq1 (V2 m ρ) c 0))).symm.trans (W3_main_arg2 m ρ c)

/-- The second region finds the edge encoder as launched. -/
theorem V2_arg12 (c : Dev nD) : V2 m ρ c main_arg12 = m ((c : Thread nD τ).loc main_arg12) :=
  ((W3_arr m ρ c 1).trans (((dat1 (V2 m ρ) c).arrAt_in 1 rfl _).trans (A_eq1 (V2 m ρ) c 1))).symm.trans (W3_main_arg12 m ρ c)

/-- The second region finds the edge bias as launched. -/
theorem V2_arg13 (c : Dev nD) : V2 m ρ c main_arg13 = m ((c : Thread nD τ).loc main_arg13) :=
  ((W3_arr m ρ c 2).trans (((dat1 (V2 m ρ) c).arrAt_in 2 rfl _).trans (A_eq1 (V2 m ρ) c 2))).symm.trans (W3_main_arg13 m ρ c)

/-- THE SECOND RESULT: the edge rows of the launch arguments. -/
theorem W3_v12 (c : Dev nD) : W3 m ρ c (Proc.devRef .tc main_v12)
    = Cert.KernelIdeal.KValue1.G (m ((c : Thread nD τ).loc main_arg2)) (m ((c : Thread nD τ).loc main_arg12))
        (m ((c : Thread nD τ).loc main_arg13)) := by
  refine ((W3_arr m ρ c 3).trans (Cert.KernelIdeal.KValue1.final (V2 m ρ) c)).trans ?_
  rw [V2_arg2 m ρ c, V2_arg12 m ρ c, V2_arg13 m ρ c]

/-- THE FIRST RESULT: the host tail of the node rows of the launch arguments and the segment indices as launched. -/
theorem W3_v11 (c : Dev nD) : W3 m ρ c (Proc.devRef .tc main_v11)
    = Cert.KernelIdeal.KTail.tail
        (Cert.KernelIdeal.KValue0.G (m ((c : Thread nD τ).loc main_arg0)) (m ((c : Thread nD τ).loc main_arg1))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) (m ((c : Thread nD τ).loc main_arg11)))
        (m ((c : Thread nD τ).loc main_arg3)) := by
  rw [W3_of_ne m ρ c main_v11 (by decide)]
  show StableHlo.after hostOps1 (W1 m ρ c) (Proc.devRef .tc main_v11) = _
  after_results
  rw [show W1 m ρ c (Proc.devRef .tc main_v0) = _ from (W1_arr m ρ c 10).trans (Cert.KernelIdeal.KValue0.final (V0 m ρ) c),
    W1_of_ne m ρ c main_arg3 (by decide)]
  rfl

end Cert.KernelIdeal.KResult

end
-- ==== Proof.RefTerm.lean ====
/-
  The reference program's two results as whole-array terms of its arguments, at the ideal
  instance (a float an extended real, every operation its textbook one), cut into stages:
  each stage is the composition of the program's operations between two named values, written
  with the operations and the shape evidence the program's text uses.
-/
import proofs.«159303_j62947040690378_2_alg».proof.ReferenceIdeal
import Idealize.ShloMosaic.PureOps.Ideal

noncomputable section

namespace Cert.ReferenceIdeal.RefTerm

open Idealize.ShloMosaic Idealize.SL.Sem
open Cert.ReferenceIdeal
open Cert.ReferenceIdeal.Facts₀ Cert.ReferenceIdeal.Facts

variable [Cert.ReferenceIdeal.Facts]

/-- %3: the edge-free encoder, the product of the 500000×1 column with the 1×128 row plus the
    bias row broadcast over the rows. -/
def enc (a1 : FVec Ideal S500000x1 .f32) (a4 : FVec Ideal S1x128 .f32) (a5 : FVec Ideal S128 .f32) :
    FVec Ideal S500000x128 .f32 :=
  addf (F := Ideal) (Host.dotGeneral (F := Ideal) dot_S500000x1_S1x128_S500000x128_1_0_0_1_n_n none a1 a4)
    (broadcastInDim S500000x128 ![0, 1] bcast_S1x128_S500000x128_0_1
      (broadcastInDim S1x128 ![1] bcast_S128_S1x128_1 a5))

/-- %4: the encoded columns followed by the 128 columns of %arg0. -/
def cat (a0 : FVec Ideal S500000x128 .f32) (a1 : FVec Ideal S500000x1 .f32) (a4 : FVec Ideal S1x128 .f32)
    (a5 : FVec Ideal S128 .f32) : FVec Ideal S500000x256 .f32 :=
  concatenate S500000x256 1 [⟨S500000x128, enc a1 a4 a5⟩, ⟨S500000x128, a0⟩]
    concatenates_S500000x128_S500000x128_S500000x256_d1

/-- %8: the row mean, the row sum from zero as a column divided by 256. -/
def mean (x4 : FVec Ideal S500000x256 .f32) : FVec Ideal S500000x1 .f32 :=
  Host.divf (F := Ideal)
    (broadcastInDim S500000x1 ![0] bcast_S500000_S500000x1_0
      (Host.reduceAdd (F := Ideal) x4 (constant (F := Ideal) S_ .f32 0x00000000#32) reducesTo_S500000x256_S500000_d1 h_S_))
    (broadcastInDim S500000x1 ![] bcast_S_S500000x1 (constant (F := Ideal) S_ .f32 0x43800000#32))

/-- %15: the row variance, the row sum of the squared deviations as a column divided by 256. -/
def var (x4 : FVec Ideal S500000x256 .f32) : FVec Ideal S500000x1 .f32 :=
  Host.divf (F := Ideal)
    (broadcastInDim S500000x1 ![0] bcast_S500000_S500000x1_0
      (Host.reduceAdd (F := Ideal)
        (mulf (F := Ideal)
          (subf (F := Ideal) x4 (broadcastInDim S500000x256 ![0, 1] bcast_S500000x1_S500000x256_0_1 (mean x4)))
          (subf (F := Ideal) x4 (broadcastInDim S500000x256 ![0, 1] bcast_S500000x1_S500000x256_0_1 (mean x4))))
        (constant (F := Ideal) S_ .f32 0x00000000#32) reducesTo_S500000x256_S500000_d1 h_S_))
    (broadcastInDim S500000x1 ![] bcast_S_S500000x1 (constant (F := Ideal) S_ .f32 0x43800000#32))

/-- %28: the layer norm, the deviation from the row mean times the reciprocal square root of the
    variance plus epsilon, scaled by %arg6 and shifted by %arg7 along the columns. -/
def ln (x4 : FVec Ideal S500000x256 .f32) (a6 a7 : FVec Ideal S256 .f32) : FVec Ideal S500000x256 .f32 :=
  addf (F := Ideal)
    (mulf (F := Ideal)
      (mulf (F := Ideal)
        (subf (F := Ideal) x4 (broadcastInDim S500000x256 ![0, 1] bcast_S500000x1_S500000x256_0_1 (mean x4)))
        (broadcastInDim S500000x256 ![0, 1] bcast_S500000x1_S500000x256_0_1
          (Host.rsqrt (F := Ideal)
            (addf (F := Ideal) (var x4)
              (broadcastInDim S500000x1 ![] bcast_S_S500000x1 (constant (F := Ideal) S_ .f32 0x3727C5AC#32))))))
      (broadcastInDim S500000x256 ![0, 1] bcast_S1x256_S500000x256_0_1
        (broadcastInDim S1x256 ![1] bcast_S256_S1x256_1 a6)))
    (broadcastInDim S500000x256 ![0, 1] bcast_S1x256_S500000x256_0_1
      (broadcastInDim S1x256 ![1] bcast_S256_S1x256_1 a7))

/-- One scaled exponential linear unit, as the program's outlined function computes it: the scale
    times (x where x > 0, else alpha times expm1 of (0 where x > 0, else x)). -/
def selu (x : FVec Ideal S500000x128 .f32) : FVec Ideal S500000x128 .f32 :=
  mulf (F := Ideal)
    (broadcastInDim S500000x128 ![] bcast_S_S500000x128 (constant (F := Ideal) S_ .f32 0x3F867D5F#32))
    (select
      (cmpf (F := Ideal) .ogt x
        (broadcastInDim S500000x128 ![] bcast_S_S500000x128 (constant (F := Ideal) S_ .f32 0x00000000#32)))
      x
      (mulf (F := Ideal)
        (broadcastInDim S500000x128 ![] bcast_S_S500000x128 (id (constant (F := Ideal) S_ .f32 0x3FD62D7D#32)))
        (Host.expm1 (F := Ideal)
          (select
            (cmpf (F := Ideal) .ogt x
              (broadcastInDim S500000x128 ![] bcast_S_S500000x128 (constant (F := Ideal) S_ .f32 0x00000000#32)))
            (broadcastInDim S500000x128 ![] bcast_S_S500000x128 (id (constant (F := Ideal) S_ .f32 0x00000000#32)))
            x))))

/-- %33: the first hidden layer, the unit of the normalized rows times %arg8 plus the bias %arg9. -/
def h33 (a0 : FVec Ideal S500000x128 .f32) (a1 : FVec Ideal S500000x1 .f32) (a4 : FVec Ideal S1x128 .f32)
    (a5 : FVec Ideal S128 .f32) (a6 a7 : FVec Ideal S256 .f32) (a8 : FVec Ideal S256x128 .f32)
    (a9 : FVec Ideal S128 .f32) : FVec Ideal S500000x128 .f32 :=
  selu (addf (F := Ideal)
    (Host.dotGeneral (F := Ideal) dot_S500000x256_S256x128_S500000x128_1_0_0_1_n_n none (ln (cat a0 a1 a4 a5) a6 a7) a8)
    (broadcastInDim S500000x128 ![0, 1] bcast_S1x128_S500000x128_0_1
      (broadcastInDim S1x128 ![1] bcast_S128_S1x128_1 a9)))

/-- %38: the second hidden layer, the unit of the first times %arg10 plus the bias %arg11. -/
def h38 (a0 : FVec Ideal S500000x128 .f32) (a1 : FVec Ideal S500000x1 .f32) (a4 : FVec Ideal S1x128 .f32)
    (a5 : FVec Ideal S128 .f32) (a6 a7 : FVec Ideal S256 .f32) (a8 : FVec Ideal S256x128 .f32)
    (a9 : FVec Ideal S128 .f32) (a10 : FVec Ideal S128x128 .f32) (a11 : FVec Ideal S128 .f32) :
    FVec Ideal S500000x128 .f32 :=
  selu (addf (F := Ideal)
    (Host.dotGeneral (F := Ideal) dot_S500000x128_S128x128_S500000x128_1_0_0_1_n_n none (h33 a0 a1 a4 a5 a6 a7 a8 a9) a10)
    (broadcastInDim S500000x128 ![0, 1] bcast_S1x128_S500000x128_0_1
      (broadcastInDim S1x128 ![1] bcast_S128_S1x128_1 a11)))

/-- %50: the segment mean, the rows of h summed into the row their index names, divided by the
    number of rows summed there (at least one). -/
def resV (h : FVec Ideal S500000x128 .f32) (a3 : IVec S500000 32) : FVec Ideal S125000x128 .f32 :=
  Host.divf (F := Ideal)
    (Host.scatterAdd (F := Ideal) scatter_S125000x128_S500000x1_S500000x128_1_0_0_1
      (broadcastInDim S125000x128 ![] bcast_S_S125000x128 (constant (F := Ideal) S_ .f32 0x00000000#32))
      (broadcastInDim S500000x1 ![0] bcast_S500000_S500000x1_0 a3)
      h)
    (broadcastInDim S125000x128 ![0, 1] bcast_S125000x1_S125000x128_0_1
      (broadcastInDim S125000x1 ![0] bcast_S125000_S125000x1_0
        (maximumf (F := Ideal)
          (Host.scatterAdd (F := Ideal) scatter_S125000_S500000x1_S500000_n_0_0_1
            (broadcastInDim S125000 ![] bcast_S_S125000 (constant (F := Ideal) S_ .f32 0x00000000#32))
            (broadcastInDim S500000x1 ![0] bcast_S500000_S500000x1_0 a3)
            (broadcastInDim S500000 ![] bcast_S_S500000 (constant (F := Ideal) S_ .f32 0x3F800000#32)))
          (broadcastInDim S125000 ![] bcast_S_S125000 (constant (F := Ideal) S_ .f32 0x3F800000#32)))))

/-- %54: the edge encoder, %arg2 times %arg12 plus the bias row %arg13. -/
def resE (a2 : FVec Ideal S1000000x3 .f32) (a12 : FVec Ideal S3x128 .f32) (a13 : FVec Ideal S128 .f32) :
    FVec Ideal S1000000x128 .f32 :=
  addf (F := Ideal) (Host.dotGeneral (F := Ideal) dot_S1000000x3_S3x128_S1000000x128_1_0_0_1_n_n none a2 a12)
    (broadcastInDim S1000000x128 ![0, 1] bcast_S1x128_S1000000x128_0_1
      (broadcastInDim S1x128 ![1] bcast_S128_S1x128_1 a13))

end Cert.ReferenceIdeal.RefTerm

end
-- ==== Proof.RefRunOps.lean ====
import proofs.«159303_j62947040690378_2_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]
variable {F : FTy → Type} [FloatOps F]

/-- @main as one straight line: its own operations in order, each call of the outlined unit
    replaced by the callee's operations over the call's buffers. -/
abbrev ops : List (HloOp τ sig (Elt F)) :=
  [
    binary main_arg1 main_arg4 main_v0 ((fun l r => Host.dotGeneral dot_S500000x1_S1x128_S500000x128_1_0_0_1_n_n none l r) : (⟨S500000x1, .f32⟩ : BufTy).Contents (Elt F) → (⟨S1x128, .f32⟩ : BufTy).Contents (Elt F) → (⟨S500000x128, .f32⟩ : BufTy).Contents (Elt F)),
    unary main_arg5 main_v1 (broadcastInDim S1x128 ![1] bcast_S128_S1x128_1 : (⟨S128, .f32⟩ : BufTy).Contents (Elt F) → (⟨S1x128, .f32⟩ : BufTy).Contents (Elt F)),
    unary main_v1 main_v2 (broadcastInDim S500000x128 ![0, 1] bcast_S1x128_S500000x128_0_1 : (⟨S1x128, .f32⟩ : BufTy).Contents (Elt F) → (⟨S500000x128, .f32⟩ : BufTy).Contents (Elt F)),
    binary main_v0 main_v2 main_v3 (addf : (⟨S500000x128, .f32⟩ : BufTy).Contents (Elt F) → (⟨S500000x128, .f32⟩ : BufTy).Contents (Elt F) → (⟨S500000x128, .f32⟩ : BufTy).Contents (Elt F)),
    binary main_v3 main_arg0 main_v4 ((fun a b => concatenate S500000x256 1 [⟨S500000x128, a⟩, ⟨S500000x128, b⟩] concatenates_S500000x128_S500000x128_S500000x256_d1) : (⟨S500000x128, .f32⟩ : BufTy).Contents (Elt F) → (⟨S500000x128, .f32⟩ : BufTy).Contents (Elt F) → (⟨S500000x256, .f32⟩ : BufTy).Contents (Elt F)),
    nullary main_cst (constant S_ .f32 0x00000000#32),
    binary main_v4 main_cst main_v5 ((fun x v => Host.reduceAdd x v reducesTo_S500000x256_S500000_d1 h_S_) : (⟨S500000x256, .f32⟩ : BufTy).Contents (Elt F) → (⟨S_, .f32⟩ : BufTy).Contents (Elt F) → (⟨S500000, .f32⟩ : BufTy).Contents (Elt F)),
    unary main_v5 main_v6 (broadcastInDim S500000x1 ![0] bcast_S500000_S500000x1_0 : (⟨S500000, .f32⟩ : BufTy).Contents (Elt F) → (⟨S500000x1, .f32⟩ : BufTy).Contents (Elt F)),
    nullary main_cst_0 (constant S_ .f32 0x43800000#32),
    unary main_cst_0 main_v7 (broadcastInDim S500000x1 ![] bcast_S_S500000x1 : (⟨S_, .f32⟩ : BufTy).Contents (Elt F) → (⟨S500000x1, .f32⟩ : BufTy).Contents (Elt F)),
    binary main_v6 main_v7 main_v8 (Host.divf : (⟨S500000x1, .f32⟩ : BufTy).Contents (Elt F) → (⟨S500000x1, .f32⟩ : BufTy).Contents (Elt F) → (⟨S500000x1, .f32⟩ : BufTy).Contents (Elt F)),
    unary main_v8 main_v9 (broadcastInDim S500000x256 ![0, 1] bcast_S500000x1_S500000x256_0_1 : (⟨S500000x1, .f32⟩ : BufTy).Contents (Elt F) → (⟨S500000x256, .f32⟩ : BufTy).Contents (Elt F)),
    binary main_v4 main_v9 main_v10 (subf : (⟨S500000x256, .f32⟩ : BufTy).Contents (Elt F) → (⟨S500000x256, .f32⟩ : BufTy).Contents (Elt F) → (⟨S500000x256, .f32⟩ : BufTy).Contents (Elt F)),
    binary main_v10 main_v10 main_v11 (mulf : (⟨S500000x256, .f32⟩ : BufTy).Contents (Elt F) → (⟨S500000x256, .f32⟩ : BufTy).Contents (Elt F) → (⟨S500000x256, .f32⟩ : BufTy).Contents (Elt F)),
    nullary main_cst_1 (constant S_ .f32 0x00000000#32),
    binary main_v11 main_cst_1 main_v12 ((fun x v => Host.reduceAdd x v reducesTo_S500000x256_S500000_d1 h_S_) : (⟨S500000x256, .f32⟩ : BufTy).Contents (Elt F) → (⟨S_, .f32⟩ : BufTy).Contents (Elt F) → (⟨S500000, .f32⟩ : BufTy).Contents (Elt F)),
    unary main_v12 main_v13 (broadcastInDim S500000x1 ![0] bcast_S500000_S500000x1_0 : (⟨S500000, .f32⟩ : BufTy).Contents (Elt F) → (⟨S500000x1, .f32⟩ : BufTy).Contents (Elt F)),
    nullary main_cst_2 (constant S_ .f32 0x43800000#32),
    unary main_cst_2 main_v14 (broadcastInDim S500000x1 ![] bcast_S_S500000x1 : (⟨S_, .f32⟩ : BufTy).Contents (Elt F) → (⟨S500000x1, .f32⟩ : BufTy).Contents (Elt F)),
    binary main_v13 main_v14 main_v15 (Host.divf : (⟨S500000x1, .f32⟩ : BufTy).Contents (Elt F) → (⟨S500000x1, .f32⟩ : BufTy).Contents (Elt F) → (⟨S500000x1, .f32⟩ : BufTy).Contents (Elt F)),
    unary main_v8 main_v16 (broadcastInDim S500000x256 ![0, 1] bcast_S500000x1_S500000x256_0_1 : (⟨S500000x1, .f32⟩ : BufTy).Contents (Elt F) → (⟨S500000x256, .f32⟩ : BufTy).Contents (Elt F)),
    binary main_v4 main_v16 main_v17 (subf : (⟨S500000x256, .f32⟩ : BufTy).Contents (Elt F) → (⟨S500000x256, .f32⟩ : BufTy).Contents (Elt F) → (⟨S500000x256, .f32⟩ : BufTy).Contents (Elt F)),
    nullary main_cst_3 (constant S_ .f32 0x3727C5AC#32),
    unary main_cst_3 main_v18 (broadcastInDim S500000x1 ![] bcast_S_S500000x1 : (⟨S_, .f32⟩ : BufTy).Contents (Elt F) → (⟨S500000x1, .f32⟩ : BufTy).Contents (Elt F)),
    binary main_v15 main_v18 main_v19 (addf : (⟨S500000x1, .f32⟩ : BufTy).Contents (Elt F) → (⟨S500000x1, .f32⟩ : BufTy).Contents (Elt F) → (⟨S500000x1, .f32⟩ : BufTy).Contents (Elt F)),
    unary main_v19 main_v20 (Host.rsqrt : (⟨S500000x1, .f32⟩ : BufTy).Contents (Elt F) → (⟨S500000x1, .f32⟩ : BufTy).Contents (Elt F)),
    unary main_v20 main_v21 (broadcastInDim S500000x256 ![0, 1] bcast_S500000x1_S500000x256_0_1 : (⟨S500000x1, .f32⟩ : BufTy).Contents (Elt F) → (⟨S500000x256, .f32⟩ : BufTy).Contents (Elt F)),
    binary main_v17 main_v21 main_v22 (mulf : (⟨S500000x256, .f32⟩ : BufTy).Contents (Elt F) → (⟨S500000x256, .f32⟩ : BufTy).Contents (Elt F) → (⟨S500000x256, .f32⟩ : BufTy).Contents (Elt F)),
    unary main_arg6 main_v23 (broadcastInDim S1x256 ![1] bcast_S256_S1x256_1 : (⟨S256, .f32⟩ : BufTy).Contents (Elt F) → (⟨S1x256, .f32⟩ : BufTy).Contents (Elt F)),
    unary main_v23 main_v24 (broadcastInDim S500000x256 ![0, 1] bcast_S1x256_S500000x256_0_1 : (⟨S1x256, .f32⟩ : BufTy).Contents (Elt F) → (⟨S500000x256, .f32⟩ : BufTy).Contents (Elt F)),
    binary main_v22 main_v24 main_v25 (mulf : (⟨S500000x256, .f32⟩ : BufTy).Contents (Elt F) → (⟨S500000x256, .f32⟩ : BufTy).Contents (Elt F) → (⟨S500000x256, .f32⟩ : BufTy).Contents (Elt F)),
    unary main_arg7 main_v26 (broadcastInDim S1x256 ![1] bcast_S256_S1x256_1 : (⟨S256, .f32⟩ : BufTy).Contents (Elt F) → (⟨S1x256, .f32⟩ : BufTy).Contents (Elt F)),
    unary main_v26 main_v27 (broadcastInDim S500000x256 ![0, 1] bcast_S1x256_S500000x256_0_1 : (⟨S1x256, .f32⟩ : BufTy).Contents (Elt F) → (⟨S500000x256, .f32⟩ : BufTy).Contents (Elt F)),
    binary main_v25 main_v27 main_v28 (addf : (⟨S500000x256, .f32⟩ : BufTy).Contents (Elt F) → (⟨S500000x256, .f32⟩ : BufTy).Contents (Elt F) → (⟨S500000x256, .f32⟩ : BufTy).Contents (Elt F)),
    binary main_v28 main_arg8 main_v29 ((fun l r => Host.dotGeneral dot_S500000x256_S256x128_S500000x128_1_0_0_1_n_n none l r) : (⟨S500000x256, .f32⟩ : BufTy).Contents (Elt F) → (⟨S256x128, .f32⟩ : BufTy).Contents (Elt F) → (⟨S500000x128, .f32⟩ : BufTy).Contents (Elt F)),
    unary main_arg9 main_v30 (broadcastInDim S1x128 ![1] bcast_S128_S1x128_1 : (⟨S128, .f32⟩ : BufTy).Contents (Elt F) → (⟨S1x128, .f32⟩ : BufTy).Contents (Elt F)),
    unary main_v30 main_v31 (broadcastInDim S500000x128 ![0, 1] bcast_S1x128_S500000x128_0_1 : (⟨S1x128, .f32⟩ : BufTy).Contents (Elt F) → (⟨S500000x128, .f32⟩ : BufTy).Contents (Elt F)),
    binary main_v29 main_v31 main_v32 (addf : (⟨S500000x128, .f32⟩ : BufTy).Contents (Elt F) → (⟨S500000x128, .f32⟩ : BufTy).Contents (Elt F) → (⟨S500000x128, .f32⟩ : BufTy).Contents (Elt F)),
    TRef.nullary main_call0.cst (constant S_ .f32 0x3FD62D7D#32),
    TRef.nullary main_call0.call0.cst (constant S_ .f32 0x00000000#32),
    TRef.unary main_call0.call0.cst main_call0.call0.v0 (broadcastInDim S500000x128 ![] bcast_S_S500000x128),
    TRef.binary (.of main_v32) main_call0.call0.v0 main_call0.call0.v1 (cmpf .ogt),
    TRef.nullary main_call0.call0.cst_0 (constant S_ .f32 0x00000000#32),
    TRef.unary main_call0.call0.cst_0 main_call0.call0.v2 (broadcastInDim S500000x128 ![] bcast_S_S500000x128),
    TRef.binary (.of main_v32) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S500000x128 ![] bcast_S_S500000x128),
    TRef.ternary main_call0.call0.v3 main_call0.call0.call0.v1 (.of main_v32) main_call0.call0.call0.v2 select,
    TRef.unary main_call0.call0.call0.v2 main_call0.call0.v5 Host.expm1,
    TRef.unary main_call0.cst main_call0.call0.v6 id,
    TRef.unary main_call0.call0.v6 main_call0.call0.v7 (broadcastInDim S500000x128 ![] bcast_S_S500000x128),
    TRef.binary main_call0.call0.v7 main_call0.call0.v5 main_call0.call0.v8 mulf,
    TRef.ternary main_call0.call0.v1 (.of main_v32) main_call0.call0.v8 main_call0.call0.call1.v0 select,
    TRef.nullary main_call0.cst_0 (constant S_ .f32 0x3F867D5F#32),
    TRef.unary main_call0.cst_0 main_call0.v1 (broadcastInDim S500000x128 ![] bcast_S_S500000x128),
    TRef.binary main_call0.v1 main_call0.call0.call1.v0 main_call0.v2 mulf,
    binary main_v33 main_arg10 main_v34 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg11 main_v35 (broadcastInDim S1x128 ![1] bcast_S128_S1x128_1 : (⟨S128, .f32⟩ : BufTy).Contents (Elt F) → (⟨S1x128, .f32⟩ : BufTy).Contents (Elt F)),
    unary main_v35 main_v36 (broadcastInDim S500000x128 ![0, 1] bcast_S1x128_S500000x128_0_1 : (⟨S1x128, .f32⟩ : BufTy).Contents (Elt F) → (⟨S500000x128, .f32⟩ : BufTy).Contents (Elt F)),
    binary main_v34 main_v36 main_v37 (addf : (⟨S500000x128, .f32⟩ : BufTy).Contents (Elt F) → (⟨S500000x128, .f32⟩ : BufTy).Contents (Elt F) → (⟨S500000x128, .f32⟩ : BufTy).Contents (Elt F)),
    TRef.nullary main_call1.cst (constant S_ .f32 0x3FD62D7D#32),
    TRef.nullary main_call1.call0.cst (constant S_ .f32 0x00000000#32),
    TRef.unary main_call1.call0.cst main_call1.call0.v0 (broadcastInDim S500000x128 ![] bcast_S_S500000x128),
    TRef.binary (.of main_v37) main_call1.call0.v0 main_call1.call0.v1 (cmpf .ogt),
    TRef.nullary main_call1.call0.cst_0 (constant S_ .f32 0x00000000#32),
    TRef.unary main_call1.call0.cst_0 main_call1.call0.v2 (broadcastInDim S500000x128 ![] bcast_S_S500000x128),
    TRef.binary (.of main_v37) main_call1.call0.v2 main_call1.call0.v3 (cmpf .ogt),
    TRef.nullary main_call1.call0.cst_1 (constant S_ .f32 0x00000000#32),
    TRef.unary main_call1.call0.cst_1 main_call1.call0.call0.v0 id,
    TRef.unary main_call1.call0.call0.v0 main_call1.call0.call0.v1 (broadcastInDim S500000x128 ![] bcast_S_S500000x128),
    TRef.ternary main_call1.call0.v3 main_call1.call0.call0.v1 (.of main_v37) main_call1.call0.call0.v2 select,
    TRef.unary main_call1.call0.call0.v2 main_call1.call0.v5 Host.expm1,
    TRef.unary main_call1.cst main_call1.call0.v6 id,
    TRef.unary main_call1.call0.v6 main_call1.call0.v7 (broadcastInDim S500000x128 ![] bcast_S_S500000x128),
    TRef.binary main_call1.call0.v7 main_call1.call0.v5 main_call1.call0.v8 mulf,
    TRef.ternary main_call1.call0.v1 (.of main_v37) main_call1.call0.v8 main_call1.call0.call1.v0 select,
    TRef.nullary main_call1.cst_0 (constant S_ .f32 0x3F867D5F#32),
    TRef.unary main_call1.cst_0 main_call1.v1 (broadcastInDim S500000x128 ![] bcast_S_S500000x128),
    TRef.binary main_call1.v1 main_call1.call0.call1.v0 main_call1.v2 mulf,
    nullary main_cst_4 (constant S_ .f32 0x00000000#32),
    unary main_cst_4 main_v39 (broadcastInDim S125000x128 ![] bcast_S_S125000x128 : (⟨S_, .f32⟩ : BufTy).Contents (Elt F) → (⟨S125000x128, .f32⟩ : BufTy).Contents (Elt F)),
    unary main_arg3 main_v40 (broadcastInDim S500000x1 ![0] bcast_S500000_S500000x1_0 : (⟨S500000, .i32⟩ : BufTy).Contents (Elt F) → (⟨S500000x1, .i32⟩ : BufTy).Contents (Elt F)),
    ternary main_v39 main_v40 main_v38 main_v41 ((fun x i u => Host.scatterAdd scatter_S125000x128_S500000x1_S500000x128_1_0_0_1 x i u) : (⟨S125000x128, .f32⟩ : BufTy).Contents (Elt F) → (⟨S500000x1, .i32⟩ : BufTy).Contents (Elt F) → (⟨S500000x128, .f32⟩ : BufTy).Contents (Elt F) → (⟨S125000x128, .f32⟩ : BufTy).Contents (Elt F)),
    nullary main_cst_5 (constant S_ .f32 0x3F800000#32),
    unary main_cst_5 main_v42 (broadcastInDim S500000 ![] bcast_S_S500000 : (⟨S_, .f32⟩ : BufTy).Contents (Elt F) → (⟨S500000, .f32⟩ : BufTy).Contents (Elt F)),
    nullary main_cst_6 (constant S_ .f32 0x00000000#32),
    unary main_cst_6 main_v43 (broadcastInDim S125000 ![] bcast_S_S125000 : (⟨S_, .f32⟩ : BufTy).Contents (Elt F) → (⟨S125000, .f32⟩ : BufTy).Contents (Elt F)),
    unary main_arg3 main_v44 (broadcastInDim S500000x1 ![0] bcast_S500000_S500000x1_0 : (⟨S500000, .i32⟩ : BufTy).Contents (Elt F) → (⟨S500000x1, .i32⟩ : BufTy).Contents (Elt F)),
    ternary main_v43 main_v44 main_v42 main_v45 ((fun x i u => Host.scatterAdd scatter_S125000_S500000x1_S500000_n_0_0_1 x i u) : (⟨S125000, .f32⟩ : BufTy).Contents (Elt F) → (⟨S500000x1, .i32⟩ : BufTy).Contents (Elt F) → (⟨S500000, .f32⟩ : BufTy).Contents (Elt F) → (⟨S125000, .f32⟩ : BufTy).Contents (Elt F)),
    nullary main_cst_7 (constant S_ .f32 0x3F800000#32),
    unary main_cst_7 main_v46 (broadcastInDim S125000 ![] bcast_S_S125000 : (⟨S_, .f32⟩ : BufTy).Contents (Elt F) → (⟨S125000, .f32⟩ : BufTy).Contents (Elt F)),
    binary main_v45 main_v46 main_v47 (maximumf : (⟨S125000, .f32⟩ : BufTy).Contents (Elt F) → (⟨S125000, .f32⟩ : BufTy).Contents (Elt F) → (⟨S125000, .f32⟩ : BufTy).Contents (Elt F)),
    unary main_v47 main_v48 (broadcastInDim S125000x1 ![0] bcast_S125000_S125000x1_0 : (⟨S125000, .f32⟩ : BufTy).Contents (Elt F) → (⟨S125000x1, .f32⟩ : BufTy).Contents (Elt F)),
    unary main_v48 main_v49 (broadcastInDim S125000x128 ![0, 1] bcast_S125000x1_S125000x128_0_1 : (⟨S125000x1, .f32⟩ : BufTy).Contents (Elt F) → (⟨S125000x128, .f32⟩ : BufTy).Contents (Elt F)),
    binary main_v41 main_v49 main_v50 (Host.divf : (⟨S125000x128, .f32⟩ : BufTy).Contents (Elt F) → (⟨S125000x128, .f32⟩ : BufTy).Contents (Elt F) → (⟨S125000x128, .f32⟩ : BufTy).Contents (Elt F)),
    binary main_arg2 main_arg12 main_v51 ((fun l r => Host.dotGeneral dot_S1000000x3_S3x128_S1000000x128_1_0_0_1_n_n none l r) : (⟨S1000000x3, .f32⟩ : BufTy).Contents (Elt F) → (⟨S3x128, .f32⟩ : BufTy).Contents (Elt F) → (⟨S1000000x128, .f32⟩ : BufTy).Contents (Elt F)),
    unary main_arg13 main_v52 (broadcastInDim S1x128 ![1] bcast_S128_S1x128_1 : (⟨S128, .f32⟩ : BufTy).Contents (Elt F) → (⟨S1x128, .f32⟩ : BufTy).Contents (Elt F)),
    unary main_v52 main_v53 (broadcastInDim S1000000x128 ![0, 1] bcast_S1x128_S1000000x128_0_1 : (⟨S1x128, .f32⟩ : BufTy).Contents (Elt F) → (⟨S1000000x128, .f32⟩ : BufTy).Contents (Elt F)),
    binary main_v51 main_v53 main_v54 (addf : (⟨S1000000x128, .f32⟩ : BufTy).Contents (Elt F) → (⟨S1000000x128, .f32⟩ : BufTy).Contents (Elt F) → (⟨S1000000x128, .f32⟩ : BufTy).Contents (Elt F)) ]

set_option maxRecDepth 4096 in
set_option maxHeartbeats 4000000 in
/-- @main is that straight line: the two windows in order, the outlined functions unfolded at
    their calls, sequencing reassociated. -/
theorem main_eq (c : Dev nD) : main (F := F) c = seq ops := by
  simp only [main, main_part0, main_part1, fn_selu.body, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

set_option maxRecDepth 8192 in
set_option maxHeartbeats 4000000 in
/-- The fold of the line at the first result is the staged term: each operation's result read at
    the buffer it writes, every other buffer passed through, and what is left is the stages'
    definitions unfolded. -/
theorem v50_eq (V : Valuation τ sig (Elt Ideal)) :
    after (ops (F := Ideal)) V (main_v50 : DevRef τ sig)
      = RefTerm.resV (RefTerm.h38 (V (main_arg0 : DevRef τ sig)) (V (main_arg1 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig))) (V (main_arg3 : DevRef τ sig)) := by
  after_results_simp
  rfl

/-- The fold at the second result: the last four operations. -/
theorem v54_eq (V : Valuation τ sig (Elt Ideal)) :
    after (ops (F := Ideal)) V (main_v54 : DevRef τ sig)
      = RefTerm.resE (V (main_arg2 : DevRef τ sig)) (V (main_arg12 : DevRef τ sig)) (V (main_arg13 : DevRef τ sig)) := by
  after_results_simp
  rfl

/-! No operation of the line writes an argument's buffer. -/

theorem arg0_eq (V : Valuation τ sig (Elt Ideal)) :
    after (ops (F := Ideal)) V (main_arg0 : DevRef τ sig) = (V (main_arg0 : DevRef τ sig)) := by
  after_results_simp

theorem arg1_eq (V : Valuation τ sig (Elt Ideal)) :
    after (ops (F := Ideal)) V (main_arg1 : DevRef τ sig) = (V (main_arg1 : DevRef τ sig)) := by
  after_results_simp

theorem arg2_eq (V : Valuation τ sig (Elt Ideal)) :
    after (ops (F := Ideal)) V (main_arg2 : DevRef τ sig) = (V (main_arg2 : DevRef τ sig)) := by
  after_results_simp

theorem arg3_eq (V : Valuation τ sig (Elt Ideal)) :
    after (ops (F := Ideal)) V (main_arg3 : DevRef τ sig) = (V (main_arg3 : DevRef τ sig)) := by
  after_results_simp

theorem arg4_eq (V : Valuation τ sig (Elt Ideal)) :
    after (ops (F := Ideal)) V (main_arg4 : DevRef τ sig) = (V (main_arg4 : DevRef τ sig)) := by
  after_results_simp

theorem arg5_eq (V : Valuation τ sig (Elt Ideal)) :
    after (ops (F := Ideal)) V (main_arg5 : DevRef τ sig) = (V (main_arg5 : DevRef τ sig)) := by
  after_results_simp

theorem arg6_eq (V : Valuation τ sig (Elt Ideal)) :
    after (ops (F := Ideal)) V (main_arg6 : DevRef τ sig) = (V (main_arg6 : DevRef τ sig)) := by
  after_results_simp

theorem arg7_eq (V : Valuation τ sig (Elt Ideal)) :
    after (ops (F := Ideal)) V (main_arg7 : DevRef τ sig) = (V (main_arg7 : DevRef τ sig)) := by
  after_results_simp

theorem arg8_eq (V : Valuation τ sig (Elt Ideal)) :
    after (ops (F := Ideal)) V (main_arg8 : DevRef τ sig) = (V (main_arg8 : DevRef τ sig)) := by
  after_results_simp

theorem arg9_eq (V : Valuation τ sig (Elt Ideal)) :
    after (ops (F := Ideal)) V (main_arg9 : DevRef τ sig) = (V (main_arg9 : DevRef τ sig)) := by
  after_results_simp

theorem arg10_eq (V : Valuation τ sig (Elt Ideal)) :
    after (ops (F := Ideal)) V (main_arg10 : DevRef τ sig) = (V (main_arg10 : DevRef τ sig)) := by
  after_results_simp

theorem arg11_eq (V : Valuation τ sig (Elt Ideal)) :
    after (ops (F := Ideal)) V (main_arg11 : DevRef τ sig) = (V (main_arg11 : DevRef τ sig)) := by
  after_results_simp

theorem arg12_eq (V : Valuation τ sig (Elt Ideal)) :
    after (ops (F := Ideal)) V (main_arg12 : DevRef τ sig) = (V (main_arg12 : DevRef τ sig)) := by
  after_results_simp

theorem arg13_eq (V : Valuation τ sig (Elt Ideal)) :
    after (ops (F := Ideal)) V (main_arg13 : DevRef τ sig) = (V (main_arg13 : DevRef τ sig)) := by
  after_results_simp

end Cert.ReferenceIdeal.RefRun

end
-- ==== Proof.RefRun.lean ====
/-
  The reference program's run read back: every weakly fair execution of @main terminates, the two
  result buffers at the staged terms of the arguments' launch contents and the arguments unchanged.
  The straight line, its fold at the result buffers and at the arguments are the imported module's.
-/
import proofs.«159303_j62947040690378_2_alg».proof.Proof.RefRunOps

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-- On every device, from any memory with zero counters: every weakly fair execution of @main
    terminates, with the first result at the segment mean of the second hidden layer, the second at
    the edge encoder, and the fourteen arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v50) = RefTerm.resV (RefTerm.h38 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg3))
      ∧ r.2.mem ((c.tc : Thread nD τ).loc main_v54) = RefTerm.resE (m ((c.tc : Thread nD τ).loc main_arg2)) (m ((c.tc : Thread nD τ).loc main_arg12)) (m ((c.tc : Thread nD τ).loc main_arg13))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8))
      ∧ r.2.mem ((c.tc : Thread nD τ).loc main_arg9) = (m ((c.tc : Thread nD τ).loc main_arg9))
      ∧ r.2.mem ((c.tc : Thread nD τ).loc main_arg10) = (m ((c.tc : Thread nD τ).loc main_arg10))
      ∧ r.2.mem ((c.tc : Thread nD τ).loc main_arg11) = (m ((c.tc : Thread nD τ).loc main_arg11))
      ∧ r.2.mem ((c.tc : Thread nD τ).loc main_arg12) = (m ((c.tc : Thread nD τ).loc main_arg12))
      ∧ r.2.mem ((c.tc : Thread nD τ).loc main_arg13) = (m ((c.tc : Thread nD τ).loc main_arg13))) :=
  (θ_run defs _ _).mono (fun _ h c => ⟨(h c main_v50).trans (v50_eq _), (h c main_v54).trans (v54_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _), (h c main_arg7).trans (arg7_eq _), (h c main_arg8).trans (arg8_eq _), (h c main_arg9).trans (arg9_eq _), (h c main_arg10).trans (arg10_eq _), (h c main_arg11).trans (arg11_eq _), (h c main_arg12).trans (arg12_eq _), (h c main_arg13).trans (arg13_eq _)⟩)
    (run_seq scopedRefs_eq scopedSems_eq defs main (fun _ => ops) main_eq (fun _ => ops_sub) m ρ)

end Cert.ReferenceIdeal.RefRun

end
-- ==== Proof.RefRead.lean ====
/-
  The reference's staged terms read at a row and a column. Each stage is one or two host operations whose value at an
  index depends on one row of its operand: the contraction over a single term (the scalar edge feature times the encoder
  row), the two-piece concatenation, the row sum from the zero word divided by the word 256, the normalisation, the two
  dense layers with their activation (the outlined function's `expm1` of a guarded argument is `exp x - 1` exactly where
  it is selected), the three-term contraction of the edge encoder, and the segment mean as two accumulating scatters.
-/
import proofs.«159303_j62947040690378_2_alg».proof.Proof.RefTerm
import proofs.«159303_j62947040690378_2_alg».proof.Proof.Spec
import proofs.«159303_j62947040690378_2_alg».proof.Proof.LibDenseRows
import proofs.«159303_j62947040690378_2_alg».proof.Proof.LibRowLift
import proofs.«159303_j62947040690378_2_alg».proof.Proof.SegmentDims

noncomputable section

namespace Cert.ReferenceIdeal.RefRead

open Idealize.ShloMosaic Idealize.ShloMosaic.ValueIdx Idealize.SL.Sem
open Cert.ReferenceIdeal Cert.ReferenceIdeal.Facts₀ Cert.ReferenceIdeal.Facts
open Cert.Spec (word encCat rowMean rowVar layerNorm dense nodeRow edgeRow segMean)
open Cert.DenseRows
open scoped BigOperators

variable [Cert.ReferenceIdeal.Facts]

/-- A scalar word laid over any shape reads that word everywhere. -/
theorem splat_apply {T : Shape} (h : S_.BroadcastsInDim T ![]) (b : BitVec 32) (j : T.Idx) :
    broadcastInDim T ![] h (constant (F := Ideal) S_ .f32 b) j = word b := by
  rw [broadcastInDim_scalar_apply]; rfl

theorem hostRsqrt_apply {s : Shape} {φ : FTy} (v : FVec Ideal s φ) (i : s.Idx) : Host.rsqrt v i = Ideal.rsqrt (v i) := rfl
theorem hostExpm1_apply {s : Shape} {φ : FTy} (v : FVec Ideal s φ) (i : s.Idx) : Host.expm1 v i = Ideal.exp (v i) - 1 := rfl

/-- The encoded edge feature at `(i, k)`: a contraction over one term, plus the bias. -/
theorem enc_apply (a1 : FVec Ideal S500000x1 .f32) (a4 : FVec Ideal S1x128 .f32) (a5 : FVec Ideal S128 .f32) (i : Fin 500000) (k : Fin 128) :
    RefTerm.enc a1 a4 a5 (ix2 i k) = a1 (ix2 i (0 : Fin 1)) * a4 (ix2 (0 : Fin 1) k) + a5 (ix1 k) := by
  unfold RefTerm.enc
  rw [addf_apply, dotGeneral_plain_apply dot_S500000x1_S1x128_S500000x128_1_0_0_1_n_n rfl rfl rfl rfl (fun _ _ => rfl) (fun _ _ => rfl) a1 a4 i k,
    rowBias_inDim_apply, Fin.sum_univ_one]

/-- Entry `k` of row `i` before normalisation. -/
theorem cat_apply (a0 : FVec Ideal S500000x128 .f32) (a1 : FVec Ideal S500000x1 .f32) (a4 : FVec Ideal S1x128 .f32) (a5 : FVec Ideal S128 .f32)
    (i : Fin 500000) (k : Fin 256) :
    RefTerm.cat a0 a1 a4 a5 (ix2 i k)
      = encCat (a1 (ix2 i (0 : Fin 1))) (fun a => a0 (ix2 i a)) (fun a => a4 (ix2 (0 : Fin 1) a)) (fun a => a5 (ix1 a)) k := by
  unfold RefTerm.cat encCat
  by_cases h : k.val < 128
  · rw [dif_pos h]
    exact (concat_cols_left _ _ concatenates_S500000x128_S500000x128_S500000x256_d1 i k h).trans (enc_apply a1 a4 a5 i ⟨k.val, h⟩)
  · rw [dif_neg h]
    exact concat_cols_right _ _ concatenates_S500000x128_S500000x128_S500000x256_d1 i k (by omega) (by have := k.isLt; omega)

/-- The column of row means. -/
theorem mean_apply (x : FVec Ideal S500000x256 .f32) (i : Fin 500000) (u : Fin 1) :
    RefTerm.mean x (ix2 i u) = rowMean (fun a => x (ix2 i a)) := by
  unfold RefTerm.mean rowMean
  rw [hostDivf_apply, broadcastInDim_a_a1_apply, splat_apply,
    hostRowSum_apply x _ reducesTo_S500000x256_S500000_d1 h_S_ (by decide) (Cert.RowLift.lift_row _) i,
    constant_apply, Ideal.ofBits_zero_f32, zero_add]

/-- The column of row variances. -/
theorem var_apply (x : FVec Ideal S500000x256 .f32) (i : Fin 500000) (u : Fin 1) :
    RefTerm.var x (ix2 i u) = rowVar (fun a => x (ix2 i a)) := by
  unfold RefTerm.var rowVar
  rw [hostDivf_apply, broadcastInDim_a_a1_apply, splat_apply,
    hostRowSum_apply _ _ reducesTo_S500000x256_S500000_d1 h_S_ (by decide) (Cert.RowLift.lift_row _) i,
    constant_apply, Ideal.ofBits_zero_f32, zero_add]
  have e : ∀ k : Fin 256, broadcastInDim S500000x256 ![0, 1] bcast_S500000x1_S500000x256_0_1 (RefTerm.mean x) (ix2 i k)
      = rowMean (fun a => x (ix2 i a)) := fun k => (broadcastInDim_a1_ab_apply _ _ i k).trans (mean_apply x i 0)
  simp only [mulf_apply, subf_apply, e]

/-- The normalised entry. -/
theorem ln_apply (x : FVec Ideal S500000x256 .f32) (a6 a7 : FVec Ideal S256 .f32) (i : Fin 500000) (k : Fin 256) :
    RefTerm.ln x a6 a7 (ix2 i k) = layerNorm (fun a => x (ix2 i a)) (fun a => a6 (ix1 a)) (fun a => a7 (ix1 a)) k := by
  unfold RefTerm.ln layerNorm
  rw [addf_apply, mulf_apply, mulf_apply, subf_apply, broadcastInDim_a1_ab_apply, broadcastInDim_a1_ab_apply, rowBias_inDim_apply,
    rowBias_inDim_apply, mean_apply, hostRsqrt_apply, addf_apply, var_apply, splat_apply]

/-- The outlined activation, entry by entry, is the scaled exponential linear unit. -/
theorem selu_apply (x : FVec Ideal S500000x128 .f32) (j : S500000x128.Idx) : RefTerm.selu x j = Cert.Spec.selu (x j) := by
  unfold RefTerm.selu Cert.Spec.selu
  show word 0x3F867D5F#32 * Scalar.select (Ideal.cmp .ogt (x j) (word 0x00000000#32)) (x j)
      (word 0x3FD62D7D#32 * (Ideal.exp (Scalar.select (Ideal.cmp .ogt (x j) (word 0x00000000#32)) (word 0x00000000#32) (x j)) - 1)) = _
  rcases BitVec.eq_zero_or_eq_one (Ideal.cmp .ogt (x j) (word 0x00000000#32)) with h | h
  · rw [h]; simp only [select_zero, Ideal.ofBits_one_f32]
  · rw [h]; simp only [select_one]

/-- The first hidden layer at `(i, j)`. -/
theorem h33_apply (a0 : FVec Ideal S500000x128 .f32) (a1 : FVec Ideal S500000x1 .f32) (a4 : FVec Ideal S1x128 .f32) (a5 : FVec Ideal S128 .f32)
    (a6 a7 : FVec Ideal S256 .f32) (a8 : FVec Ideal S256x128 .f32) (a9 : FVec Ideal S128 .f32) (i : Fin 500000) (j : Fin 128) :
    RefTerm.h33 a0 a1 a4 a5 a6 a7 a8 a9 (ix2 i j)
      = Cert.Spec.selu (dense (layerNorm (encCat (a1 (ix2 i (0 : Fin 1))) (fun a => a0 (ix2 i a)) (fun a => a4 (ix2 (0 : Fin 1) a))
          (fun a => a5 (ix1 a))) (fun a => a6 (ix1 a)) (fun a => a7 (ix1 a))) (fun k a => a8 (ix2 k a)) (fun a => a9 (ix1 a)) j) := by
  unfold RefTerm.h33 dense
  rw [selu_apply, addf_apply,
    dotGeneral_plain_apply dot_S500000x256_S256x128_S500000x128_1_0_0_1_n_n rfl rfl rfl rfl (fun _ _ => rfl) (fun _ _ => rfl) _ a8 i j,
    rowBias_inDim_apply]
  simp only [ln_apply, cat_apply]

/-- The second hidden layer at `(i, j)`: the node row. -/
theorem h38_apply (a0 : FVec Ideal S500000x128 .f32) (a1 : FVec Ideal S500000x1 .f32) (a4 : FVec Ideal S1x128 .f32) (a5 : FVec Ideal S128 .f32)
    (a6 a7 : FVec Ideal S256 .f32) (a8 : FVec Ideal S256x128 .f32) (a9 : FVec Ideal S128 .f32) (a10 : FVec Ideal S128x128 .f32)
    (a11 : FVec Ideal S128 .f32) (i : Fin 500000) (j : Fin 128) :
    RefTerm.h38 a0 a1 a4 a5 a6 a7 a8 a9 a10 a11 (ix2 i j)
      = nodeRow (a1 (ix2 i (0 : Fin 1))) (fun a => a0 (ix2 i a)) (fun a => a4 (ix2 (0 : Fin 1) a)) (fun a => a5 (ix1 a))
          (fun a => a6 (ix1 a)) (fun a => a7 (ix1 a)) (fun k a => a8 (ix2 k a)) (fun a => a9 (ix1 a)) (fun k a => a10 (ix2 k a))
          (fun a => a11 (ix1 a)) j := by
  unfold RefTerm.h38 nodeRow
  rw [selu_apply, addf_apply,
    dotGeneral_plain_apply dot_S500000x128_S128x128_S500000x128_1_0_0_1_n_n rfl rfl rfl rfl (fun _ _ => rfl) (fun _ _ => rfl) _ a10 i j,
    rowBias_inDim_apply]
  simp only [h33_apply]
  rfl

/-- The edge encoder at `(i, j)`: a contraction over three terms, plus the bias. -/
theorem resE_apply (a2 : FVec Ideal S1000000x3 .f32) (a12 : FVec Ideal S3x128 .f32) (a13 : FVec Ideal S128 .f32) (i : Fin 1000000) (j : Fin 128) :
    RefTerm.resE a2 a12 a13 (ix2 i j) = edgeRow (fun k => a2 (ix2 i k)) (fun k a => a12 (ix2 k a)) (fun a => a13 (ix1 a)) j := by
  unfold RefTerm.resE edgeRow
  rw [addf_apply, dotGeneral_plain_apply dot_S1000000x3_S3x128_S1000000x128_1_0_0_1_n_n rfl rfl rfl rfl (fun _ _ => rfl) (fun _ _ => rfl) a2 a12 i j,
    rowBias_inDim_apply, Fin.sum_univ_three]

/-- The segment mean at `(s, j)`. -/
theorem resV_apply (h : FVec Ideal S500000x128 .f32) (a3 : IVec S500000 32) (s : Fin 125000) (j : Fin 128) :
    RefTerm.resV h a3 (ix2 s j) = segMean (fun i : Fin 500000 => (a3 (ix1 i)).toInt) (fun i f => h (ix2 i f)) s.val j := by
  unfold RefTerm.resV segMean
  rw [hostDivf_apply, Cert.SegmentDims.ref_scatter_rows_apply, splat_apply, broadcastInDim_a1_ab_apply, broadcastInDim_a_a1_apply,
    maximumf_apply, Cert.SegmentDims.ref_scatter_counts_apply, splat_apply, splat_apply]
  have e1 : ∀ i : Fin 500000, broadcastInDim S500000x1 ![0] bcast_S500000_S500000x1_0 a3 (ix2 i (0 : Fin 1)) = a3 (ix1 i) :=
    fun i => broadcastInDim_a_a1_apply a3 _ i 0
  have e2 : ∀ i : Fin 500000, broadcastInDim S500000 ![] bcast_S_S500000 (constant (F := Ideal) S_ .f32 0x3F800000#32) (ix1 i)
      = word 0x3F800000#32 := fun i => splat_apply _ _ _
  simp only [e1, e2]

end Cert.ReferenceIdeal.RefRead

end
-- ==== Proof.Results.lean ====
/-
  The two programs compute one function of the arguments. At a low-resolution node `s` and column `j` both first results are
  the segment mean, over the high-resolution nodes assigned to `s`, of the node rows: the reference sums the 128 columns
  and counts the rows in two accumulations, the kernel's program accumulates the rows with a column of ones appended and
  cuts the result in two; either way the sum runs over the rows whose index is `s`. At a low-resolution edge both second
  results are the edge row.
-/
import proofs.«159303_j62947040690378_2_alg».proof.Proof.RefRead
import proofs.«159303_j62947040690378_2_alg».proof.Proof.KTail
import proofs.«159303_j62947040690378_2_alg».proof.Proof.KValue0
import proofs.«159303_j62947040690378_2_alg».proof.Proof.KValue1

noncomputable section

namespace Cert.Results

open Idealize.ShloMosaic Idealize.ShloMosaic.ValueIdx

variable [Cert.KernelIdeal.Facts] [Cert.ReferenceIdeal.Facts]

/-- The pooled node features: the reference's staged term is the kernel program's host tail of the node rows. -/
theorem nodes_eq (a0 : FVec Ideal ⟨2, ![500000, 128]⟩ .f32) (a1 : FVec Ideal ⟨2, ![500000, 1]⟩ .f32) (a4 : FVec Ideal ⟨2, ![1, 128]⟩ .f32)
    (a5 : FVec Ideal ⟨1, ![128]⟩ .f32) (a6 a7 : FVec Ideal ⟨1, ![256]⟩ .f32) (a8 : FVec Ideal ⟨2, ![256, 128]⟩ .f32)
    (a9 : FVec Ideal ⟨1, ![128]⟩ .f32) (a10 : FVec Ideal ⟨2, ![128, 128]⟩ .f32) (a11 : FVec Ideal ⟨1, ![128]⟩ .f32)
    (a3 : IVec ⟨1, ![500000]⟩ 32) :
    Cert.ReferenceIdeal.RefTerm.resV (Cert.ReferenceIdeal.RefTerm.h38 a0 a1 a4 a5 a6 a7 a8 a9 a10 a11) a3
      = Cert.KernelIdeal.KTail.tail (Cert.KernelIdeal.KValue0.G a0 a1 a4 a5 a6 a7 a8 a9 a10 a11) a3 := by
  funext y
  obtain ⟨s, j, rfl⟩ : ∃ (s : Fin 125000) (j : Fin 128), y = ix2 s j := ⟨y 0, y 1, eq_ix2 y⟩
  rw [Cert.ReferenceIdeal.RefRead.resV_apply, Cert.KernelIdeal.KTail.tail_apply]
  simp only [Cert.ReferenceIdeal.RefRead.h38_apply]
  rfl

/-- The encoded low-resolution edges: the reference's term is the second region's output array. -/
theorem edges_eq (a2 : FVec Ideal ⟨2, ![1000000, 3]⟩ .f32) (a12 : FVec Ideal ⟨2, ![3, 128]⟩ .f32) (a13 : FVec Ideal ⟨1, ![128]⟩ .f32) :
    Cert.ReferenceIdeal.RefTerm.resE a2 a12 a13 = Cert.KernelIdeal.KValue1.G a2 a12 a13 := by
  funext y
  obtain ⟨i, j, rfl⟩ : ∃ (i : Fin 1000000) (j : Fin 128), y = ix2 i j := ⟨y 0, y 1, eq_ix2 y⟩
  rw [Cert.ReferenceIdeal.RefRead.resE_apply]
  rfl

end Cert.Results

end
-- ==== Proof.lean ====
/-
  The certificate's five claims for the mesh down-sampling step: a row network over 500000 high-resolution nodes (edge
  feature encoded and set beside the node features, normalised, two dense layers with a scaled exponential linear unit),
  pooled by mean into 125000 low-resolution nodes, and an encoder of 1000000 low-resolution edges.

  The kernel's program runs two pipelined regions with a stretch of host operations between them; its frame, at the bits
  and at the ideal values, is the generated one. The reference is a host program; its run ends with both results at staged
  whole-array terms of the arguments, and dropping the results gives its frame. No operation was rewritten when the kernel's
  program was idealised, so that claim is trivial. For the last claim both programs are run from memories agreeing on the
  arguments: the kernel's program ends with the pooled features at the host tail of the first region's output array (the
  node rows of the arguments) and the encoded edges at the second region's output array (the edge rows of the arguments);
  the reference ends at its staged terms; and the two pairs are one pair of functions of the arguments, index by index,
  by re-association of sums alone — no use is made of the arguments being finite.
-/
import proofs.«159303_j62947040690378_2_alg».proof.Defs
import proofs.«159303_j62947040690378_2_alg».proof.Proof.Gen.Kernel
import proofs.«159303_j62947040690378_2_alg».proof.Proof.Gen.Kernel.Skeleton
import proofs.«159303_j62947040690378_2_alg».proof.Proof.Gen.Kernel.Launch
import proofs.«159303_j62947040690378_2_alg».proof.Proof.Gen.Kernel.Points
import proofs.«159303_j62947040690378_2_alg».proof.Proof.Gen.Kernel.Frame
import proofs.«159303_j62947040690378_2_alg».proof.Proof.Gen.KernelIdeal
import proofs.«159303_j62947040690378_2_alg».proof.Proof.Gen.KernelIdeal.Skeleton
import proofs.«159303_j62947040690378_2_alg».proof.Proof.Gen.KernelIdeal.Launch
import proofs.«159303_j62947040690378_2_alg».proof.Proof.Gen.KernelIdeal.Points
import proofs.«159303_j62947040690378_2_alg».proof.Proof.Gen.KernelIdeal.Frame
import proofs.«159303_j62947040690378_2_alg».proof.Proof.Gen.ReferenceIdeal
import proofs.«159303_j62947040690378_2_alg».proof.Proof.Gen.Pre_finite_inputs
import proofs.«159303_j62947040690378_2_alg».proof.Proof.KRun
import proofs.«159303_j62947040690378_2_alg».proof.Proof.KResult
import proofs.«159303_j62947040690378_2_alg».proof.Proof.RefRun
import proofs.«159303_j62947040690378_2_alg».proof.Proof.Results
import Idealize.ShloMosaic.Adequacy
import Idealize.ShloMosaic.Init

noncomputable section

namespace Cert.Proof

open Idealize.ShloMosaic Idealize.SL.Sem

/-- The kernel's program, at the bits: it runs and leaves its arguments as launched. -/
theorem frame_kernel : Cert.frame_Kernel := fun m ρ _ => Cert.Kernel.Gen.frame m ρ

/-- The kernel's program, at the ideal values: it runs and leaves its arguments as launched. -/
theorem frame_kernelIdeal : Cert.frame_KernelIdeal := fun m ρ _ => Cert.KernelIdeal.Gen.frame m ρ

/-- The reference: its run with the two results dropped. -/
theorem frame_referenceIdeal : Cert.frame_ReferenceIdeal := fun m ρ _ =>
  (θ_run Cert.ReferenceIdeal.defs _ _).mono (fun _ h c => (h c).2.2) (Cert.ReferenceIdeal.RefRun.run m ρ)

/-- Idealising the kernel's program rewrote no operation. -/
theorem preserves : Cert.preserves_Kernel_KernelIdeal := trivial

/-- From memories agreeing on the arguments both programs end with the same two results. -/
theorem algebraic : Cert.algebraic_KernelIdeal_ReferenceIdeal := by
  intro m ρ m' ρ' _ hagree
  refine ⟨fun c => Cert.KernelIdeal.KTail.tail
      (Cert.KernelIdeal.KValue0.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
      (m ((c.tc : Thread Cert.KernelIdeal.nD Cert.KernelIdeal.τ).loc Cert.KernelIdeal.main_arg3)),
    fun c => Cert.KernelIdeal.KValue1.G (m ((c.tc : Thread Cert.KernelIdeal.nD Cert.KernelIdeal.τ).loc Cert.KernelIdeal.main_arg2)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ?_) (Cert.KernelIdeal.KRun.run_all (F := Ideal) m ρ)
    exact ⟨(h c _ (Cert.KernelIdeal.Gen.mem_uc Cert.KernelIdeal.main_v11 (by decide))).trans (Cert.KernelIdeal.KResult.W3_v11 m ρ c),
      (h c _ (Cert.KernelIdeal.Gen.mem_uc Cert.KernelIdeal.main_v12 (by decide))).trans (Cert.KernelIdeal.KResult.W3_v12 m ρ c),
      (h c _ (Cert.KernelIdeal.Gen.mem_uc Cert.KernelIdeal.main_arg0 (by decide))).trans (Cert.KernelIdeal.Gen.W3_main_arg0 m ρ c),
      (h c _ (Cert.KernelIdeal.Gen.mem_uc Cert.KernelIdeal.main_arg1 (by decide))).trans (Cert.KernelIdeal.Gen.W3_main_arg1 m ρ c),
      (h c _ (Cert.KernelIdeal.Gen.mem_uc Cert.KernelIdeal.main_arg2 (by decide))).trans (Cert.KernelIdeal.Gen.W3_main_arg2 m ρ c),
      (h c _ (Cert.KernelIdeal.Gen.mem_uc Cert.KernelIdeal.main_arg3 (by decide))).trans (Cert.KernelIdeal.Gen.W3_main_arg3 m ρ c),
      (h c _ (Cert.KernelIdeal.Gen.mem_uc Cert.KernelIdeal.main_arg4 (by decide))).trans (Cert.KernelIdeal.Gen.W3_main_arg4 m ρ c),
      (h c _ (Cert.KernelIdeal.Gen.mem_uc Cert.KernelIdeal.main_arg5 (by decide))).trans (Cert.KernelIdeal.Gen.W3_main_arg5 m ρ c),
      (h c _ (Cert.KernelIdeal.Gen.mem_uc Cert.KernelIdeal.main_arg6 (by decide))).trans (Cert.KernelIdeal.Gen.W3_main_arg6 m ρ c),
      (h c _ (Cert.KernelIdeal.Gen.mem_uc Cert.KernelIdeal.main_arg7 (by decide))).trans (Cert.KernelIdeal.Gen.W3_main_arg7 m ρ c),
      (h c _ (Cert.KernelIdeal.Gen.mem_uc Cert.KernelIdeal.main_arg8 (by decide))).trans (Cert.KernelIdeal.Gen.W3_main_arg8 m ρ c),
      (h c _ (Cert.KernelIdeal.Gen.mem_uc Cert.KernelIdeal.main_arg9 (by decide))).trans (Cert.KernelIdeal.Gen.W3_main_arg9 m ρ c),
      (h c _ (Cert.KernelIdeal.Gen.mem_uc Cert.KernelIdeal.main_arg10 (by decide))).trans (Cert.KernelIdeal.Gen.W3_main_arg10 m ρ c),
      (h c _ (Cert.KernelIdeal.Gen.mem_uc Cert.KernelIdeal.main_arg11 (by decide))).trans (Cert.KernelIdeal.Gen.W3_main_arg11 m ρ c),
      (h c _ (Cert.KernelIdeal.Gen.mem_uc Cert.KernelIdeal.main_arg12 (by decide))).trans (Cert.KernelIdeal.Gen.W3_main_arg12 m ρ c),
      (h c _ (Cert.KernelIdeal.Gen.mem_uc Cert.KernelIdeal.main_arg13 (by decide))).trans (Cert.KernelIdeal.Gen.W3_main_arg13 m ρ c)⟩
  · refine (θ_run Cert.ReferenceIdeal.defs _ _).mono (fun r h c => ⟨(h c).1.trans ?_, (h c).2.1.trans ?_, (h c).2.2⟩)
      (Cert.ReferenceIdeal.RefRun.run m' ρ')
    · obtain ⟨e0, e1, e2, e3, e4, e5, e6, e7, e8, e9, e10, e11, e12, e13⟩ := hagree c
      rw [e0, e1, e3, e4, e5, e6, e7, e8, e9, e10, e11]
      exact Cert.Results.nodes_eq _ _ _ _ _ _ _ _ _ _ _
    · obtain ⟨e0, e1, e2, e3, e4, e5, e6, e7, e8, e9, e10, e11, e12, e13⟩ := hagree c
      rw [e2, e12, e13]
      exact Cert.Results.edges_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
